-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S128x64 : Shape := ⟨2, ![128, 64]⟩
abbrev S128 : Shape := ⟨1, ![128]⟩
abbrev S16x128 : Shape := ⟨2, ![16, 128]⟩
abbrev S16 : Shape := ⟨1, ![16]⟩
abbrev S2x128 : Shape := ⟨2, ![2, 128]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2x128 .f32) (main_arg9 : FVec F S2x128 .f32) (main_arg10 : FVec F S2 .f32) (main_v33 : IVec S_ 1) : IVec S_ 1 :=
  let main_v34 : FVec F S2x128 .f32 := Host.absf main_arg8
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128 .f32 := Host.absf main_arg9
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2 .f32 := Host.absf main_arg10
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg5 : FVec F S16x128 .f32) (main_arg6 : FVec F S16x128 .f32) (main_arg7 : FVec F S16 .f32) (main_arg8 : FVec F S2x128 .f32) (main_arg9 : FVec F S2x128 .f32) (main_arg10 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S16x128 .f32 := Host.absf main_arg5
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S16x128 .f32 := Host.absf main_arg6
  let main_cst_8 : FVec F S_ .f32 := constant S_ .f32 0x7F800000#32
  let main_v25 : FVec F S16x128 .f32 := broadcastInDim S16x128 ![] bcast_S_S16x128 main_cst_8
  let main_v26 : IVec S16x128 1 := cmpf .olt main_v24 main_v25
  let main_c_9 : IVec S_ 1 := constantI S_ 1 1#1
  let main_v27 : IVec S_ 1 := (fun x v => Host.reduce IntOp.andi x v reducesTo_S16x128_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x800000 32) (main_arg2 : FVec F S128x64 .f32) (main_arg3 : FVec F S128x64 .f32) (main_arg4 : FVec F S128 .f32) (main_arg5 : FVec F S16x128 .f32) (main_arg6 : FVec F S16x128 .f32) (main_arg7 : FVec F S16 .f32) (main_arg8 : FVec F S2x128 .f32) (main_arg9 : FVec F S2x128 .f32) (main_arg10 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x800000 : Shape := ⟨2, ![2, 800000]⟩
abbrev S128x64 : Shape := ⟨2, ![128, 64]⟩
abbrev S128 : Shape := ⟨1, ![128]⟩
abbrev S16x128 : Shape := ⟨2, ![16, 128]⟩
abbrev S16 : Shape := ⟨1, ![16]⟩
abbrev S2x128 : Shape := ⟨2, ![2, 128]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S100000 : Shape := ⟨1, ![100000]⟩
abbrev S100000x1 : Shape := ⟨2, ![100000, 1]⟩
abbrev S64x128 : Shape := ⟨2, ![64, 128]⟩
abbrev S100000x128 : Shape := ⟨2, ![100000, 128]⟩
abbrev S2000x64 : Shape := ⟨2, ![2000, 64]⟩
abbrev S2000x128 : Shape := ⟨2, ![2000, 128]⟩
abbrev S1x128 : Shape := ⟨2, ![1, 128]⟩
abbrev S800000x128 : Shape := ⟨2, ![800000, 128]⟩
abbrev S128x16 : Shape := ⟨2, ![128, 16]⟩
abbrev S128x2 : Shape := ⟨2, ![128, 2]⟩
abbrev S100000x16 : Shape := ⟨2, ![100000, 16]⟩
abbrev S100000x2 : Shape := ⟨2, ![100000, 2]⟩
abbrev S2000x16 : Shape := ⟨2, ![2000, 16]⟩
abbrev S2000x2 : Shape := ⟨2, ![2000, 2]⟩
abbrev S1x16 : Shape := ⟨2, ![1, 16]⟩
abbrev S1x2 : Shape := ⟨2, ![1, 2]⟩

abbrev nBuf : Space → Nat
  | .hbm => 74
  | .vmem => 23
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S128x64, .f32⟩
  | .hbm, ⟨3, _⟩ => ⟨S128x64, .f32⟩
  | .hbm, ⟨4, _⟩ => ⟨S128, .f32⟩
  | .hbm, ⟨5, _⟩ => ⟨S16x128, .f32⟩
  | .hbm, ⟨6, _⟩ => ⟨S16x128, .f32⟩
  | .hbm, ⟨7, _⟩ => ⟨S16, .f32⟩
  | .hbm, ⟨8, _⟩ => ⟨S2x128, .f32⟩
  | .hbm, ⟨9, _⟩ => ⟨S2x128, .f32⟩
  | .hbm, ⟨10, _⟩ => ⟨S2, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .f32⟩
  | .hbm, ⟨25, _⟩ => ⟨S100000x64, .f32⟩
  | .hbm, ⟨26, _⟩ => ⟨S800000x1, .i32⟩
  | .hbm, ⟨27, _⟩ => ⟨S100000x64, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S100000, .f32⟩
  | .hbm, ⟨32, _⟩ => ⟨S800000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S64x128, .f32⟩
  | .hbm, ⟨41, _⟩ => ⟨S64x128, .f32⟩
  | .hbm, ⟨42, _⟩ => ⟨S100000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S100000x128, .f32⟩
  | .hbm, ⟨54, _⟩ => ⟨S800000x1, .i32⟩
  | .hbm, ⟨55, _⟩ => ⟨S100000x128, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S100000, .f32⟩
  | .hbm, ⟨60, _⟩ => ⟨S800000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S128x16, .f32⟩
  | .hbm, ⟨69, _⟩ => ⟨S128x16, .f32⟩
  | .hbm, ⟨70, _⟩ => ⟨S128x2, .f32⟩
  | .hbm, ⟨71, _⟩ => ⟨S128x2, .f32⟩
  | .hbm, ⟨72, _⟩ => ⟨S100000x16, .f32⟩
  | .hbm, ⟨73, _⟩ => ⟨S100000x2, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x128, .f32⟩
  | .local _ .vmem, ⟨5, _⟩ => ⟨S64x128, .f32⟩
  | .local _ .vmem, ⟨6, _⟩ => ⟨S128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x16, .f32⟩
  | .local _ .vmem, ⟨14, _⟩ => ⟨S128x16, .f32⟩
  | .local _ .vmem, ⟨15, _⟩ => ⟨S16, .f32⟩
  | .local _ .vmem, ⟨16, _⟩ => ⟨S128x2, .f32⟩
  | .local _ .vmem, ⟨17, _⟩ => ⟨S128x2, .f32⟩
  | .local _ .vmem, ⟨18, _⟩ => ⟨S2, .f32⟩
  | .local _ .vmem, ⟨19, _⟩ => ⟨S2000x16, .f32⟩
  | .local _ .vmem, ⟨20, _⟩ => ⟨S2000x16, .f32⟩
  | .local _ .vmem, ⟨21, _⟩ => ⟨S2000x2, .f32⟩
  | .local _ .vmem, ⟨22, _⟩ => ⟨S2000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49_0 : Ref sig .tc := ⟨.hbm, 72, rfl⟩
abbrev main_v49_1 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem8_1 : DmaSem sig := 20
abbrev cc1_sem9_0 : DmaSem sig := 21
abbrev cc1_sem9_1 : DmaSem sig := 22

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x16 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x2 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S16x128_S128x16_1_0 : S16x128.Transposes [1, 0] S128x16
  transposes_S2x128_S128x2_1_0 : S2x128.Transposes [1, 0] S128x2
  shapeCasts_S2000x128_S2000x128 : S2000x128.ShapeCasts S2000x128
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S16_S16_0 : ∀ a, (![0] : Fin 1 → Nat) a + S16.size a ≤ S16.size a
  h_S16 : 0 < S16.numel
  shapeCasts_S16_S1x16 : S16.ShapeCasts S1x16
  broadcasts_S1x16_S2000x16 : S1x16.Broadcasts S2000x16
  inb_S2_S2_0 : ∀ a, (![0] : Fin 1 → Nat) a + S2.size a ≤ S2.size a
  h_S2 : 0 < S2.numel
  shapeCasts_S2_S1x2 : S2.ShapeCasts S1x2
  broadcasts_S1x2_S2000x2 : S1x2.Broadcasts S2000x2
  inb_S2000x16_S2000x16_0_0 : ∀ a, (![0, 0] : Fin 2 → Nat) a + S2000x16.size a ≤ S2000x16.size a
  h_S2000x16 : 0 < S2000x16.numel
  inb_S2000x2_S2000x2_0_0 : ∀ a, (![0, 0] : Fin 2 → Nat) a + S2000x2.size a ≤ S2000x2.size a
  h_S2000x2 : 0 < S2000x2.numel
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  scatter_S100000_S800000x1_S800000_n_0_0_1_wf : ScatterDims.WF S100000 S800000x1 S800000 [] [0] [0] 1
  dot_S2000x64_S64x128_S2000x128_1_0_0_1_n_n_wf : DotDims.WF S2000x64 S64x128 S2000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S2000x128_S128x16_S2000x16_1_0_0_1_n_n_wf : DotDims.WF S2000x128 S128x16 S2000x16 [1] [0] [0] [1] [] []
  dot_S2000x128_S128x2_S2000x2_1_0_0_1_n_n_wf : DotDims.WF S2000x128 S128x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x16.size a ≤ S128x16.size a
  hwx1_2 : ∀ i : grid1.Coords, EltTy.bits .f32 = 32 ∨ (Rect.block (s := S128x16) S128x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x16.size a ≤ S128x16.size a
  hwx1_3 : ∀ i : grid1.Coords, EltTy.bits .f32 = 32 ∨ (Rect.block (s := S128x16) S128x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16.size a ≤ S16.size a
  hwx1_4 : ∀ i : grid1.Coords, EltTy.bits .f32 = 32 ∨ (Rect.block (s := S16) S16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x2.size a ≤ S128x2.size a
  hwx1_5 : ∀ i : grid1.Coords, EltTy.bits .f32 = 32 ∨ (Rect.block (s := S128x2) S128x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x2.size a ≤ S128x2.size a
  hwx1_6 : ∀ i : grid1.Coords, EltTy.bits .f32 = 32 ∨ (Rect.block (s := S128x2) S128x2.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2.size a ≤ S2.size a
  hwx1_7 : ∀ i : grid1.Coords, EltTy.bits .f32 = 32 ∨ (Rect.block (s := S2) S2.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x16.size a ≤ S100000x16.size a
  hwx1_8 : ∀ i : grid1.Coords, EltTy.bits .f32 = 32 ∨ (Rect.block (s := S100000x16) S2000x16.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x2.size a ≤ S100000x2.size a
  hwx1_9 : ∀ i : grid1.Coords, EltTy.bits .f32 = 32 ∨ (Rect.block (s := S100000x2) S2000x2.size (cc1_transform_9 i) (hinb1_9 i)).WholeWords (EltTy.packing .f32)

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf

abbrev win0_0 : Pipeline.Window sig grid0 :=
  Pipeline.Window.ofSpec (Memref.whole main_v22) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S128x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S128x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S128x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48) S128x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v49_0) S2000x16.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v49_1) S2000x2.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S128x64 : Shape := ⟨2, ![128, 64]⟩
abbrev S128 : Shape := ⟨1, ![128]⟩
abbrev S16x128 : Shape := ⟨2, ![16, 128]⟩
abbrev S16 : Shape := ⟨1, ![16]⟩
abbrev S2x128 : Shape := ⟨2, ![2, 128]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S100000 : Shape := ⟨1, ![100000]⟩
abbrev S100000x1 : Shape := ⟨2, ![100000, 1]⟩
abbrev S64x128 : Shape := ⟨2, ![64, 128]⟩
abbrev S100000x128 : Shape := ⟨2, ![100000, 128]⟩
abbrev S1x128 : Shape := ⟨2, ![1, 128]⟩
abbrev S800000x128 : Shape := ⟨2, ![800000, 128]⟩
abbrev S128x16 : Shape := ⟨2, ![128, 16]⟩
abbrev S100000x16 : Shape := ⟨2, ![100000, 16]⟩
abbrev S1x16 : Shape := ⟨2, ![1, 16]⟩
abbrev S128x2 : Shape := ⟨2, ![128, 2]⟩
abbrev S100000x2 : Shape := ⟨2, ![100000, 2]⟩
abbrev S1x2 : Shape := ⟨2, ![1, 2]⟩

abbrev nBuf : Space → Nat
  | .hbm => 132
  | .vmem => 0
  | .smem => 0
  | _ => 0

abbrev hbmTy0_0 (i : Nat) : BufTy := match i % 128 with
  | 0 => ⟨S100000x64, .f32⟩
  | 1 => ⟨S2x800000, .i32⟩
  | 2 => ⟨S128x64, .f32⟩
  | 3 => ⟨S128x64, .f32⟩
  | 4 => ⟨S128, .f32⟩
  | 5 => ⟨S16x128, .f32⟩
  | 6 => ⟨S16x128, .f32⟩
  | 7 => ⟨S16, .f32⟩
  | 8 => ⟨S2x128, .f32⟩
  | 9 => ⟨S2x128, .f32⟩
  | 10 => ⟨S2, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x64, .f32⟩
  | 24 => ⟨S_, .f32⟩
  | 25 => ⟨S100000x64, .f32⟩
  | 26 => ⟨S800000x1, .i32⟩
  | 27 => ⟨S100000x64, .f32⟩
  | 28 => ⟨S_, .f32⟩
  | 29 => ⟨S800000, .f32⟩
  | 30 => ⟨S_, .f32⟩
  | 31 => ⟨S100000, .f32⟩
  | 32 => ⟨S800000x1, .i32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x64, .f32⟩
  | 39 => ⟨S100000x64, .f32⟩
  | 40 => ⟨S64x128, .f32⟩
  | 41 => ⟨S100000x128, .f32⟩
  | 42 => ⟨S1x128, .f32⟩
  | 43 => ⟨S100000x128, .f32⟩
  | 44 => ⟨S100000x128, .f32⟩
  | 45 => ⟨S64x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S1x800000, .i32⟩
  | 52 => ⟨S800000, .i32⟩
  | 53 => ⟨S1x800000, .i32⟩
  | 54 => ⟨S800000, .i32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S_, .f32⟩
  | 65 => ⟨S100000x128, .f32⟩
  | 66 => ⟨S800000x1, .i32⟩
  | 67 => ⟨S100000x128, .f32⟩
  | 68 => ⟨S_, .f32⟩
  | 69 => ⟨S800000, .f32⟩
  | 70 => ⟨S_, .f32⟩
  | 71 => ⟨S100000, .f32⟩
  | 72 => ⟨S800000x1, .i32⟩
  | 73 => ⟨S100000, .f32⟩
  | 74 => ⟨S_, .f32⟩
  | 75 => ⟨S100000, .f32⟩
  | 76 => ⟨S100000, .f32⟩
  | 77 => ⟨S100000x1, .f32⟩
  | 78 => ⟨S100000x128, .f32⟩
  | 79 => ⟨S100000x128, .f32⟩
  | 80 => ⟨S128x16, .f32⟩
  | 81 => ⟨S100000x16, .f32⟩
  | 82 => ⟨S1x16, .f32⟩
  | 83 => ⟨S100000x16, .f32⟩
  | 84 => ⟨S100000x16, .f32⟩
  | 85 => ⟨S128x16, .f32⟩
  | 86 => ⟨S100000x16, .f32⟩
  | 87 => ⟨S100000x16, .f32⟩
  | 88 => ⟨S_, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S100000x128, .f32⟩
  | 95 => ⟨S1x800000, .i32⟩
  | 96 => ⟨S800000, .i32⟩
  | 97 => ⟨S1x800000, .i32⟩
  | 98 => ⟨S800000, .i32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x128, .f32⟩
  | 108 => ⟨S_, .f32⟩
  | 109 => ⟨S100000x128, .f32⟩
  | 110 => ⟨S800000x1, .i32⟩
  | 111 => ⟨S100000x128, .f32⟩
  | 112 => ⟨S_, .f32⟩
  | 113 => ⟨S800000, .f32⟩
  | 114 => ⟨S_, .f32⟩
  | 115 => ⟨S100000, .f32⟩
  | 116 => ⟨S800000x1, .i32⟩
  | 117 => ⟨S100000, .f32⟩
  | 118 => ⟨S_, .f32⟩
  | 119 => ⟨S100000, .f32⟩
  | 120 => ⟨S100000, .f32⟩
  | 121 => ⟨S100000x1, .f32⟩
  | 122 => ⟨S100000x128, .f32⟩
  | 123 => ⟨S100000x128, .f32⟩
  | 124 => ⟨S128x2, .f32⟩
  | 125 => ⟨S100000x2, .f32⟩
  | 126 => ⟨S1x2, .f32⟩
  | 127 => ⟨S100000x2, .f32⟩
  | _ => ⟨S100000x64, .f32⟩

abbrev hbmTy0_1 (i : Nat) : BufTy := match i % 128 with
  | 0 => ⟨S100000x2, .f32⟩
  | 1 => ⟨S128x2, .f32⟩
  | 2 => ⟨S100000x2, .f32⟩
  | 3 => ⟨S100000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_4 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_10 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_12 : Ref sig .tc := ⟨.hbm, 99, rfl⟩
abbrev main_v72 : Ref sig .tc := ⟨.hbm, 100, rfl⟩
abbrev main_v73 : Ref sig .tc := ⟨.hbm, 101, rfl⟩
abbrev main_c_13 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_14 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_15 : Ref sig .tc := ⟨.hbm, 112, rfl⟩
abbrev main_v82 : Ref sig .tc := ⟨.hbm, 113, rfl⟩
abbrev main_cst_16 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_17 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S16x128_S128x16_1_0 : S16x128.Transposes [1, 0] S128x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  transposes_S2x128_S128x2_1_0 : S2x128.Transposes [1, 0] S128x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  scatter_S100000_S800000x1_S800000_n_0_0_1_wf : ScatterDims.WF S100000 S800000x1 S800000 [] [0] [0] 1
  dot_S100000x64_S64x128_S100000x128_1_0_0_1_n_n_wf : DotDims.WF S100000x64 S64x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x16_S100000x16_1_0_0_1_n_n_wf : DotDims.WF S100000x128 S128x16 S100000x16 [1] [0] [0] [1] [] []
  dot_S100000x128_S128x2_S100000x2_1_0_0_1_n_n_wf : DotDims.WF S100000x128 S128x2 S100000x2 [1] [0] [0] [1] [] []

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.LibRealChain.lean ====
/-
  "Being a real" is preserved along a dense layer and a softmax read on the extended reals.

  An extended real `x` IS A REAL when `x = ↑r` for some `r : ℝ`, equivalently `x ≠ ⊤ ∧ x ≠ ⊥`; it is a
  POSITIVE REAL when moreover `0 < r`. The operations below are the scalar operations of the ideal
  float instance: EReal's `+`, `-`, `*`, `max`, `min`, unary `-`, and `Ideal.tanh`, `Ideal.exp`,
  `Ideal.div`. Each step keeps the value a real:

    • a finite sum of reals, of products of reals, and a real added to it (a dense layer's row);
    • `tanh` of a real (`Real.tanh`);
    • the maximum of two reals, a difference of reals (a softmax's shift by the row maximum);
    • `exp` of a real is a POSITIVE real (`Real.exp`);
    • a nonempty finite sum of positive reals is a positive real (the softmax's denominator);
    • a real divided by a positive real (by a nonzero real) is a real, and it is `↑(a / b)`.
-/
import Idealize.ShloMosaic.PureOps.Ideal
import Mathlib.Data.Finset.Fold

namespace Cert.Lib

open Idealize.ShloMosaic
open scoped BigOperators

/-- An extended real that is (the coercion of) a real. -/
def IsReal (x : EReal) : Prop := ∃ r : ℝ, x = (r : EReal)

/-- An extended real that is a positive real. -/
def IsPosReal (x : EReal) : Prop := ∃ r : ℝ, 0 < r ∧ x = (r : EReal)

/-- Being a real is being neither infinity. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

/-- A coerced real is a real. -/
theorem isReal_coe (r : ℝ) : IsReal (r : EReal) := ⟨r, rfl⟩

/-- Zero is a real. -/
theorem isReal_zero : IsReal 0 := ⟨0, EReal.coe_zero.symm⟩

/-- One is a real. -/
theorem isReal_one : IsReal 1 := ⟨1, EReal.coe_one.symm⟩

/-- A real is the coercion of its real part. -/
theorem IsReal.coe_toReal {x : EReal} (h : IsReal x) : ((x.toReal : ℝ) : EReal) = x := by
  obtain ⟨r, rfl⟩ := h; rw [EReal.toReal_coe]

theorem IsReal.ne_top {x : EReal} (h : IsReal x) : x ≠ ⊤ := (isReal_iff.mp h).1
theorem IsReal.ne_bot {x : EReal} (h : IsReal x) : x ≠ ⊥ := (isReal_iff.mp h).2

/-- A positive real is a real. -/
theorem IsPosReal.isReal {x : EReal} (h : IsPosReal x) : IsReal x := by
  obtain ⟨r, _, rfl⟩ := h; exact ⟨r, rfl⟩

/-- A positive real is above zero. -/
theorem IsPosReal.pos {x : EReal} (h : IsPosReal x) : 0 < x := by
  obtain ⟨r, hr, rfl⟩ := h; exact EReal.coe_pos.mpr hr

/-- A positive real is not zero. -/
theorem IsPosReal.ne_zero {x : EReal} (h : IsPosReal x) : x ≠ 0 := h.pos.ne'

/-- A positive real is a real above zero, and conversely. -/
theorem isPosReal_iff {x : EReal} : IsPosReal x ↔ IsReal x ∧ 0 < x := by
  constructor
  · intro h; exact ⟨h.isReal, h.pos⟩
  · rintro ⟨⟨r, rfl⟩, h⟩; exact ⟨r, EReal.coe_pos.mp h, rfl⟩

/-- The sum of two reals is a real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two reals is a real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is a real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real is a real. -/
theorem IsReal.neg {x : EReal} (hx : IsReal x) : IsReal (-x) := by
  obtain ⟨a, rfl⟩ := hx; exact ⟨-a, (EReal.coe_neg a).symm⟩

/-- The maximum of two reals is a real. -/
theorem IsReal.max {x y : EReal} (hx : IsReal x) (hy : IsReal y) : IsReal (max x y) := by
  rcases max_choice x y with h | h <;> rw [h] <;> assumption

/-- The minimum of two reals is a real. -/
theorem IsReal.min {x y : EReal} (hx : IsReal x) (hy : IsReal y) : IsReal (min x y) := by
  rcases min_choice x y with h | h <;> rw [h] <;> assumption

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A sum of reals over a whole finite type is a real. -/
theorem IsReal.sum_univ {ι : Type*} [Fintype ι] (f : ι → EReal) (h : ∀ i, IsReal (f i)) :
    IsReal (∑ i, f i) :=
  IsReal.sum Finset.univ f fun i _ => h i

/-- A finite sum of products of reals (a row of a dense layer before its bias) is a real. -/
theorem IsReal.sum_mul {ι : Type*} (s : Finset ι) (f g : ι → EReal) (hf : ∀ i ∈ s, IsReal (f i))
    (hg : ∀ i ∈ s, IsReal (g i)) : IsReal (∑ i ∈ s, f i * g i) :=
  IsReal.sum s _ fun i hi => (hf i hi).mul (hg i hi)

/-- The same over a whole finite type. -/
theorem IsReal.sum_univ_mul {ι : Type*} [Fintype ι] (f g : ι → EReal) (hf : ∀ i, IsReal (f i))
    (hg : ∀ i, IsReal (g i)) : IsReal (∑ i, f i * g i) :=
  IsReal.sum_univ _ fun i => (hf i).mul (hg i)

/-- An accumulator plus a sum of products, all real (a contraction onto a real accumulator), is a real. -/
theorem IsReal.add_sum_univ_mul {ι : Type*} [Fintype ι] {acc : EReal} (hacc : IsReal acc) (f g : ι → EReal)
    (hf : ∀ i, IsReal (f i)) (hg : ∀ i, IsReal (g i)) : IsReal (acc + ∑ i, f i * g i) :=
  hacc.add (IsReal.sum_univ_mul f g hf hg)

/-- `tanh` of a real is a real: the ideal `tanh` is `Real.tanh` on the reals. -/
theorem IsReal.tanh {x : EReal} (hx : IsReal x) : IsReal (Ideal.tanh x) := by
  obtain ⟨a, rfl⟩ := hx; exact ⟨Real.tanh a, rfl⟩

/-- `exp` of a real is a positive real: the ideal `exp` is `Real.exp` on the reals. -/
theorem IsReal.exp {x : EReal} (hx : IsReal x) : IsPosReal (Ideal.exp x) := by
  obtain ⟨a, rfl⟩ := hx; exact ⟨Real.exp a, Real.exp_pos a, rfl⟩

/-- The sum of two positive reals is a positive real. -/
theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩

/-- The product of two positive reals is a positive real. -/
theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩

/-- A nonempty finite sum of positive reals (a softmax's denominator) is a positive real. -/
theorem IsPosReal.sum {ι : Type*} {s : Finset ι} (hs : s.Nonempty) (f : ι → EReal)
    (h : ∀ i ∈ s, IsPosReal (f i)) : IsPosReal (∑ i ∈ s, f i) := by
  induction hs using Finset.Nonempty.cons_induction with
  | singleton a => rw [Finset.sum_singleton]; exact h a (Finset.mem_singleton_self a)
  | cons a s ha hs ih =>
    rw [Finset.sum_cons]
    exact (h a (Finset.mem_cons_self a s)).add (ih fun i hi => h i (Finset.mem_cons.mpr (Or.inr hi)))

/-- The same over a whole nonempty finite type. -/
theorem IsPosReal.sum_univ {ι : Type*} [Fintype ι] [Nonempty ι] (f : ι → EReal) (h : ∀ i, IsPosReal (f i)) :
    IsPosReal (∑ i, f i) :=
  IsPosReal.sum Finset.univ_nonempty f fun i _ => h i

/-- The ideal quotient of two coerced reals, the divisor nonzero, is the coerced real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A real divided by a nonzero real is a real. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe_coe a hb⟩

/-- A real divided by a positive real (a softmax's numerator by its denominator) is a real. -/
theorem IsReal.div_pos {x y : EReal} (hx : IsReal x) (hy : IsPosReal y) : IsReal (Ideal.div x y) :=
  hx.div hy.isReal hy.ne_zero

/-- A positive real divided by a positive real is a positive real. -/
theorem IsPosReal.div {x y : EReal} (hx : IsPosReal x) (hy : IsPosReal y) : IsPosReal (Ideal.div x y) := by
  obtain ⟨a, ha, rfl⟩ := hx; obtain ⟨b, hb, rfl⟩ := hy
  exact ⟨a / b, _root_.div_pos ha hb, div_coe_coe a hb.ne'⟩

/-- The fold of `max` over a nonempty finite family of reals, from an initial value that is not `⊤`
    (a row maximum taken from `-∞` or from a real), is a real. -/
theorem IsReal.fold_max {ι : Type*} {s : Finset ι} (hs : s.Nonempty) (f : ι → EReal) {b : EReal} (hb : b ≠ ⊤)
    (h : ∀ i ∈ s, IsReal (f i)) : IsReal (s.fold Max.max b f) := by
  rw [isReal_iff]
  constructor
  · exact ((Finset.fold_max_lt _).mpr ⟨lt_top_iff_ne_top.mpr hb, fun i hi => lt_top_iff_ne_top.mpr (h i hi).ne_top⟩).ne
  · obtain ⟨i, hi⟩ := hs
    exact ((Finset.lt_fold_max _).mpr (Or.inr ⟨i, hi, bot_lt_iff_ne_bot.mpr (h i hi).ne_bot⟩)).ne'

end Cert.Lib
-- ==== Proof.FiniteInputs.lean ====
/-
  From the precondition to "every float input is a real number".

  The precondition is one boolean: the conjunction, over the ten float arguments, of "every entry x has |x| < +∞".
  Over the extended reals an entry with |x| < +∞ is neither infinity, so it is (the coercion of) a real.
-/
import proofs.«129361_j51187420233864_2_alg».proof.Defs
import proofs.«129361_j51187420233864_2_alg».proof.Proof.Gen.Pre_finite_inputs
import proofs.«129361_j51187420233864_2_alg».proof.Proof.LibRealChain
import Idealize.ShloMosaic.Lib.ReduceAll
import Idealize.ShloMosaic.Lib.ValueIdx

noncomputable section

namespace Cert.Sage.Finite

open Idealize.ShloMosaic Cert.Lib Cert.Pre_finite_inputs Cert.Pre_finite_inputs.Gen

/-- The scalar shape has one index. -/
instance subsingleton_scalarIdx : Subsingleton S_.Idx := ⟨fun a b => funext fun d => d.elim0⟩

/-- The bit pattern 0x7F800000 is +∞. -/
theorem ofBits_inf : Ideal.ofBits .f32 0x7F800000#32 = (⊤ : EReal) := by
  simp [Ideal.ofBits, Ideal.ieee]

/-- On the extended reals, `max x (-x) < +∞` says that `x` is neither infinity: `max ⊤ ⊥ = ⊤` and `max ⊥ ⊤ = ⊤`
    are not below `⊤`, and every other extended real is a coerced real. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact isReal_coe r
  | top => simp [Ideal.cmp] at h

/-- One array: if the conjunction over all entries of "|x| < +∞" is true, every entry is a real. Stated over any
    shape and any proof that it reduces to the scalar shape, so that no particular array is ever evaluated. -/
theorem all_real {s : Shape} {axes : List (Fin s.rank)} (hb : S_.BroadcastsInDim s (![] : Fin 0 → Fin s.rank))
    (hr : s.ReducesTo axes S_) (hu : 0 < S_.numel) (x : FVec Ideal s .f32) (j : S_.Idx)
    (h : Host.reduce IntOp.andi (cmpf .olt (Host.absf x) (broadcastInDim s ![] hb (constant S_ .f32 0x7F800000#32)))
      (constantI S_ 1 1#1) hr hu j = 1#1) :
    ∀ i, IsReal (x i) := by
  intro i
  have e := Host.reduce_andi_all _ _ hr hu j h i
  exact isReal_of_abs_lt_inf (x i) e

/-- A conjunction of two one-bit scalars is true exactly when both are. -/
theorem andi_apply_eq_one {s : Shape} (A B : IVec s 1) (j : s.Idx) : andi A B j = 1#1 ↔ A j = 1#1 ∧ B j = 1#1 :=
  IntOp.andi_eq_one

/-- If the precondition's boolean is true of the arguments, every entry of every float argument is a real. -/
theorem real_of_fn (a0 : FVec Ideal S100000x64 .f32) (a1 : IVec S2x800000 32) (a2 a3 : FVec Ideal S128x64 .f32)
    (a4 : FVec Ideal S128 .f32) (a5 a6 : FVec Ideal S16x128 .f32) (a7 : FVec Ideal S16 .f32)
    (a8 a9 : FVec Ideal S2x128 .f32) (a10 : FVec Ideal S2 .f32)
    (h : fn (F := Ideal) a0 a1 a2 a3 a4 a5 a6 a7 a8 a9 a10 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i)) ∧ (∀ i, IsReal (a10 i)) := by
  have h0 := congrFun h ValueIdx.ix0
  unfold fn fn_part1 fn_part2 at h0
  dsimp only at h0
  obtain ⟨h0, h10⟩ := (andi_apply_eq_one _ _ _).1 h0
  obtain ⟨h0, h9⟩ := (andi_apply_eq_one _ _ _).1 h0
  obtain ⟨h0, h8⟩ := (andi_apply_eq_one _ _ _).1 h0
  obtain ⟨h0, h7⟩ := (andi_apply_eq_one _ _ _).1 h0
  obtain ⟨h0, h6⟩ := (andi_apply_eq_one _ _ _).1 h0
  obtain ⟨h0, h5⟩ := (andi_apply_eq_one _ _ _).1 h0
  obtain ⟨h0, h4⟩ := (andi_apply_eq_one _ _ _).1 h0
  obtain ⟨h0, h3⟩ := (andi_apply_eq_one _ _ _).1 h0
  obtain ⟨h0, h2⟩ := (andi_apply_eq_one _ _ _).1 h0
  exact ⟨all_real _ _ _ a0 _ h0, all_real _ _ _ a2 _ h2, all_real _ _ _ a3 _ h3, all_real _ _ _ a4 _ h4,
    all_real _ _ _ a5 _ h5, all_real _ _ _ a6 _ h6, all_real _ _ _ a7 _ h7, all_real _ _ _ a8 _ h8,
    all_real _ _ _ a9 _ h9, all_real _ _ _ a10 _ h10⟩

end Cert.Sage.Finite

end
-- ==== Proof.KernelRun.lean ====
/-
  The idealized kernel program's run, with every buffer named.

  The program is four segments: host operations, the first layer's grid, host operations, the second
  layer's grid. The buffer contents fold through the four segments (`W0` at launch … `W4` at the
  return): a stretch of host operations applies its operations in order, a grid replaces its arrays by
  what its write-backs leave and keeps every other buffer. Each segment runs from the previous
  boundary's contents to the next, so every weakly fair execution terminates and in every final state
  each unscoped buffer holds `W4`'s contents; the two result arrays are what the second grid's
  write-backs leave, the arguments are as launched.
-/
import proofs.«129361_j51187420233864_2_alg».proof.Proof.KernelIdealFrameP

set_option maxRecDepth 16384

noncomputable section

namespace Cert.KernelIdeal.Val

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final state every unscoped
    buffer of every core holds the contents the four segments fold to. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The same run, read at the two result arrays and the eleven arguments: each result array ends as the second
    grid's write-backs leave it, each argument as launched. -/
theorem run_results : θ_run defs (onTc (τ := τ) (main (F := F))) ⟨m, fun _ => 0, ρ⟩ (fun r => ∀ c : Dev nD,
      r.2.mem ((c.tc : Thread nD τ).loc main_v49_0) = W4 m ρ c (Proc.devRef .tc main_v49_0)
      ∧ r.2.mem ((c.tc : Thread nD τ).loc main_v49_1) = W4 m ρ c (Proc.devRef .tc main_v49_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v49_0 (by decide)),
     h c _ (mem_uc main_v49_1 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c)⟩)
    (run_all m ρ)

end Cert.KernelIdeal.Val

end
-- ==== Proof.LibMatmulBlock.lean ====
/-
  One block of a matrix product, entry by entry.

  A product of an m×k array by a k×n array, contracted over the left operand's second axis and the right operand's
  first, and accumulated into the all-zero array, has at entry (a, b) the value ∑_c A[a, c] · B[c, b] over the
  extended reals. The contraction's index set has one axis of extent k, so the sum over it is re-indexed by that
  axis's coordinate.
-/
import Idealize.ShloMosaic.PureOps.Ideal
import Idealize.ShloMosaic.PureOps.Ideal.Laws
import Idealize.ShloMosaic.Lib.ValueIdx

noncomputable section

namespace Cert.LibMatmulBlock

open Idealize.ShloMosaic Idealize.ShloMosaic.ValueIdx

/-- The product of an m×k block by a k×n block accumulated into the zero splat, read at entry (a, b), is the sum over
    the contracted coordinate c of A[a, c] · B[c, b]. At the ideal values; `w` is the dimension numbers'
    well-formedness, which a program states. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulBlock

end
-- ==== Proof.KernelBlock.lean ====
/-
  What each grid step of the two layer kernels computes, entry by entry.

  A step loads a block of 2000 rows of the neighbourhood means A and of the node features B, the two weight
  matrices already transposed (Wa, Wb : [k, n]) and the bias row, and stores

      (A · Wa + B · Wb) + bias            (second layer, both heads)
      max((A · Wa + B · Wb) + bias, 0)    (first layer).

  The roundings to bf16 in front of each product are the identity on extended reals, and a product accumulated into
  the zero block is the plain sum over the contracted coordinate. So the stored block at (p, q) is
  Σ_c A[p,c]·Wa[c,q] + Σ_c B[p,c]·Wb[c,q] + bias[q], rectified in the first layer.
-/
import proofs.«129361_j51187420233864_2_alg».proof.Proof.Gen.KernelIdeal.Skeleton
import proofs.«129361_j51187420233864_2_alg».proof.Proof.LibMatmulBlock
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen Idealize.ShloMosaic Idealize.ShloMosaic.ValueIdx
open scoped BigOperators

/-- Two block products into zero accumulators, added, plus a bias row broadcast down the rows, at (p, q). -/
theorem two_products_bias {m k n : Nat} {φ₁ φ₂ : FTy}
    (w : DotDims.WF ⟨2, ![m, k]⟩ ⟨2, ![k, n]⟩ ⟨2, ![m, n]⟩ [1] [0] [0] [1] [] [])
    (A B : FVec Ideal ⟨2, ![m, k]⟩ φ₁) (Wa Wb : FVec Ideal ⟨2, ![k, n]⟩ φ₂) (bias : FVec Ideal ⟨1, ![n]⟩ .f32)
    (hc : (⟨1, ![n]⟩ : Shape).ShapeCasts ⟨2, ![1, n]⟩) (hb : (⟨2, ![1, n]⟩ : Shape).Broadcasts ⟨2, ![m, n]⟩)
    (p : Fin m) (q : Fin n) :
    addf (addf
        (matmul (⟨[1], [0], [0], [1], [], [], w⟩ : DotDims ⟨2, ![m, k]⟩ ⟨2, ![k, n]⟩ ⟨2, ![m, n]⟩) none A Wa
          (constant (F := Ideal) ⟨2, ![m, n]⟩ .f32 0x00000000#32))
        (matmul (⟨[1], [0], [0], [1], [], [], w⟩ : DotDims ⟨2, ![m, k]⟩ ⟨2, ![k, n]⟩ ⟨2, ![m, n]⟩) none B Wb
          (constant (F := Ideal) ⟨2, ![m, n]⟩ .f32 0x00000000#32)))
      (broadcastTo ⟨2, ![m, n]⟩ (shapeCast ⟨2, ![1, n]⟩ bias hc) hb) (ix2 p q)
      = ((∑ c : Fin k, A (ix2 p c) * Wa (ix2 c q)) + ∑ c : Fin k, B (ix2 p c) * Wb (ix2 c q)) + bias (ix1 q) := by
  rw [addf_apply, addf_apply, Cert.LibMatmulBlock.matmul_zero_apply, Cert.LibMatmulBlock.matmul_zero_apply,
    broadcastTo_1b_ab_apply, shapeCast_a_1a_apply]

/-- The first layer's stored block at (p, q). -/
theorem pay_layer1 (x0 x1 : Vec Ideal S2000x64 .f32) (x2 x3 : Vec Ideal S64x128 .f32) (x4 : Vec Ideal S128 .f32)
    (p : Fin 2000) (q : Fin 128) :
    k0_pay1 (F := Ideal) x0 x1 x2 x3 x4 (ix2 p q)
      = max (((∑ c : Fin 64, x0 (ix2 p c) * x2 (ix2 c q)) + ∑ c : Fin 64, x1 (ix2 p c) * x3 (ix2 c q)) + x4 (ix1 q)) 0 := by
  unfold k0_pay1
  refine (maximumf_apply _ _ _).trans ?_
  refine congrArg₂ max ?_ ?_
  · refine (two_products_bias dot_S2000x64_S64x128_S2000x128_1_0_0_1_n_n_wf _ _ _ _ x4 _ _ p q).trans ?_
    simp only [truncf_apply, shapeCast_self]
  · show Ideal.ofBits .f32 0x00000000#32 = 0
    exact Ideal.ofBits_zero_f32

/-- The second layer's class head, stored block at (p, q). -/
theorem pay_layer2_class (x0 x1 : Vec Ideal S2000x128 .f32) (x2 x3 : Vec Ideal S128x16 .f32) (x4 : Vec Ideal S16 .f32)
    (p : Fin 2000) (q : Fin 16) :
    k1_pay3 (F := Ideal) x0 x1 x2 x3 x4 (ix2 p q)
      = ((∑ c : Fin 128, x0 (ix2 p c) * x2 (ix2 c q)) + ∑ c : Fin 128, x1 (ix2 p c) * x3 (ix2 c q)) + x4 (ix1 q) := by
  unfold k1_pay3 k1_pay1 k1_pay2
  refine (two_products_bias dot_S2000x128_S128x16_S2000x16_1_0_0_1_n_n_wf _ _ _ _ x4 _ _ p q).trans ?_
  simp only [truncf_apply, shapeCast_self]

/-- The second layer's domain head, stored block at (p, q). -/
theorem pay_layer2_domain (x0 x1 : Vec Ideal S2000x128 .f32) (x2 x3 : Vec Ideal S128x2 .f32) (x4 : Vec Ideal S2 .f32)
    (p : Fin 2000) (q : Fin 2) :
    k1_pay4 (F := Ideal) x0 x1 x2 x3 x4 (ix2 p q)
      = ((∑ c : Fin 128, x0 (ix2 p c) * x2 (ix2 c q)) + ∑ c : Fin 128, x1 (ix2 p c) * x3 (ix2 c q)) + x4 (ix1 q) := by
  unfold k1_pay4 k1_pay1 k1_pay2
  refine (two_products_bias dot_S2000x128_S128x2_S2000x2_1_0_0_1_n_n_wf _ _ _ _ x4 _ _ p q).trans ?_
  simp only [truncf_apply, shapeCast_self]

end Cert.KernelIdeal.Val

end
-- ==== Proof.KernelArray0.lean ====
/-
  The first layer's grid, from blocks to the whole array.

  The grid has 50 steps; step t reads rows 2000·t … 2000·t + 1999 of the neighbourhood means and of the node
  features, the two transposed weight matrices and the bias whole, and writes back rows 2000·t … 2000·t + 1999 of the
  hidden features. Row r of the result is therefore written by step r / 2000, and every entry of the result array is

      hidden[i, q] = max( Σ_c mean[i,c]·Wa[c,q] + Σ_c x[i,c]·Wb[c,q] + b[q], 0 )

  as one function (`layer1`) of the five arrays the grid finds at its entry, whatever those are.
-/
import proofs.«129361_j51187420233864_2_alg».proof.Proof.KernelIdealFrameP
import proofs.«129361_j51187420233864_2_alg».proof.Proof.KernelBlock

set_option maxRecDepth 16384

noncomputable section

namespace Cert.KernelIdeal.Val

open Cert.KernelIdeal Cert.KernelIdeal.Gen Cert.KernelIdeal.GenP
open Idealize.ShloMosaic Idealize.ShloMosaic.TcCoe Idealize.ShloMosaic.ValueIdx
open Idealize.SL Idealize.SL.Sem
open Idealize.ShloMosaic.Pipeline (Dat Cfg Window)
open scoped BigOperators

/-- The rectified first layer as one function of the whole arrays: neighbourhood means `A`, node features `X`, the
    transposed weights `Wa`, `Wb` : [64, 128] and the bias. -/
def layer1 (A X : FVec Ideal S100000x64 .f32) (Wa Wb : FVec Ideal S64x128 .f32) (b : FVec Ideal S128 .f32) :
    FVec Ideal S100000x128 .f32 :=
  fun j => max (((∑ c : Fin 64, A (ix2 (j 0 : Fin 100000) c) * Wa (ix2 c (j 1 : Fin 128)))
      + ∑ c : Fin 64, X (ix2 (j 0 : Fin 100000) c) * Wb (ix2 c (j 1 : Fin 128))) + b (ix1 (j 1 : Fin 128))) 0

theorem hz2 : (![0, 0] : Fin 2 → Nat) = fun _ => 0 := funext fun a => by fin_cases a <;> rfl
theorem hz1 : (![0] : Fin 1 → Nat) = fun _ => 0 := funext fun a => by fin_cases a; rfl

/-- The printed index maps over the 50 steps: the two row-blocked inputs and the output move together down the rows,
    at block column 0; the weights and the bias stay at block (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

set_option maxHeartbeats 1600000 in
/-- What step `t` writes back is block `t` of `layer1` of the arrays the grid found. -/
theorem flushed0_5 (c : Dev nD) (t : Fin cfg0.N) :
    (dat0 V c).flushed 5 t = ((cfg0.win 5).blk t).view.read (Elt Ideal)
      (layer1 (V c main_v22) (V c main_arg0) (V c main_v23) (V c main_v24) (V c main_arg4)) := by
  show (cfg0.win 5).cut (grid0.coords t) ((dat0 V c).after 5 t) = _
  rw [after0_5]
  unfold out0_5
  rw [View.canon_unit_zero hz2]
  simp only [View.ld_unit_zero (S := S2000x64) hz2, View.ld_unit_zero (S := S64x128) hz2, View.ld_unit_zero (S := S128) hz1]
  obtain ⟨e00, e01, e10, e11, e20, e21, e30, e31, e40, e50, e51⟩ := idx_facts0 t
  funext j
  obtain ⟨p, q, rfl⟩ : ∃ (p : Fin 2000) (q : Fin 128), j = ix2 p q := ⟨j 0, j 1, eq_ix2 j⟩
  refine (pay_layer1 (iblk0 V c 0 t) (iblk0 V c 1 t) (iblk0 V c 2 t) (iblk0 V c 3 t) (iblk0 V c 4 t) p q).trans ?_
  let A : FVec Ideal S100000x64 .f32 := V c main_v22
  let X : FVec Ideal S100000x64 .f32 := V c main_arg0
  let Wa : FVec Ideal S64x128 .f32 := V c main_v23
  let Wb : FVec Ideal S64x128 .f32 := V c main_v24
  let b : FVec Ideal S128 .f32 := V c main_arg4
  show max (((∑ k : Fin 64, A (((cfg0.win 0).blk t).view.emb (ix2 p k)) * Wa (((cfg0.win 2).blk t).view.emb (ix2 k q)))
        + ∑ k : Fin 64, X (((cfg0.win 1).blk t).view.emb (ix2 p k)) * Wb (((cfg0.win 3).blk t).view.emb (ix2 k q)))
        + b (((cfg0.win 4).blk t).view.emb (ix1 q))) 0
      = layer1 A X Wa Wb b (((cfg0.win 5).blk t).view.emb (ix2 p q))
  have hp : p.val < 2000 := p.isLt
  have hq : q.val < 128 := q.isLt
  have r0 : ∀ k : Fin 64, ((cfg0.win 0).blk t).view.emb (ix2 p k)
      = (ix2 ((((cfg0.win 5).blk t).view.emb (ix2 p q)) 0 : Fin 100000) k : S100000x64.Idx) := fun k => by
    funext a; apply Fin.ext
    match a with
    | ⟨0, _⟩ => show win0_0.index t (0 : Fin 2) * 2000 + 1 * p.val = win0_5.index t (0 : Fin 2) * 2000 + 1 * p.val; omega
    | ⟨1, _⟩ => show win0_0.index t (1 : Fin 2) * 64 + 1 * k.val = k.val; omega
  have r1 : ∀ k : Fin 64, ((cfg0.win 1).blk t).view.emb (ix2 p k)
      = (ix2 ((((cfg0.win 5).blk t).view.emb (ix2 p q)) 0 : Fin 100000) k : S100000x64.Idx) := fun k => by
    funext a; apply Fin.ext
    match a with
    | ⟨0, _⟩ => show win0_1.index t (0 : Fin 2) * 2000 + 1 * p.val = win0_5.index t (0 : Fin 2) * 2000 + 1 * p.val; omega
    | ⟨1, _⟩ => show win0_1.index t (1 : Fin 2) * 64 + 1 * k.val = k.val; omega
  have r2 : ∀ k : Fin 64, ((cfg0.win 2).blk t).view.emb (ix2 k q)
      = (ix2 k ((((cfg0.win 5).blk t).view.emb (ix2 p q)) 1 : Fin 128) : S64x128.Idx) := fun k => by
    funext a; apply Fin.ext
    match a with
    | ⟨0, _⟩ => show win0_2.index t (0 : Fin 2) * 64 + 1 * k.val = k.val; omega
    | ⟨1, _⟩ => show win0_2.index t (1 : Fin 2) * 128 + 1 * q.val = win0_5.index t (1 : Fin 2) * 128 + 1 * q.val; omega
  have r3 : ∀ k : Fin 64, ((cfg0.win 3).blk t).view.emb (ix2 k q)
      = (ix2 k ((((cfg0.win 5).blk t).view.emb (ix2 p q)) 1 : Fin 128) : S64x128.Idx) := fun k => by
    funext a; apply Fin.ext
    match a with
    | ⟨0, _⟩ => show win0_3.index t (0 : Fin 2) * 64 + 1 * k.val = k.val; omega
    | ⟨1, _⟩ => show win0_3.index t (1 : Fin 2) * 128 + 1 * q.val = win0_5.index t (1 : Fin 2) * 128 + 1 * q.val; omega
  have r4 : ((cfg0.win 4).blk t).view.emb (ix1 q)
      = (ix1 ((((cfg0.win 5).blk t).view.emb (ix2 p q)) 1 : Fin 128) : S128.Idx) := by
    funext a; apply Fin.ext
    match a with
    | ⟨0, _⟩ => show win0_4.index t (0 : Fin 1) * 128 + 1 * q.val = win0_5.index t (1 : Fin 2) * 128 + 1 * q.val; omega
  unfold layer1
  simp only [r0, r1, r2, r3, r4]

/-- An index of the result array is in step `t`'s block iff each coordinate is in the block's range on its axis. -/
theorem mem_blk0_5 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v25).slice (win0_5.rect t)).set ↔ _
  rw [View.set_slice_whole, Rect.mem_set_unit]
  exact Iff.rfl

/-- Every entry of the result array lies in the block of the step that owns its row. -/
theorem cover0_5' (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 50 := N_0
  let t : Fin cfg0.N := ⟨(i 0).val / 2000, by show (i 0).val / 2000 < grid0.N; omega⟩
  obtain ⟨-, -, -, -, -, -, -, -, -, e50, e51⟩ := idx_facts0 t
  have ht : t.val = (i 0).val / 2000 := rfl
  refine ⟨t, flush0_5 t, ?_⟩
  rw [mem_blk0_5]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The hidden-feature array after the first grid: `layer1` of the arrays the grid found at its entry. -/
theorem final0_5 (c : Dev nD) :
    (dat0 V c).arrAt 5 cfg0.N = layer1 (V c main_v22) (V c main_arg0) (V c main_v23) (V c main_v24) (V c main_arg4) :=
  (dat0 V c).arrAt_eq_of_cover 5 _ (fun t _ => flushed0_5 V c t) cover0_5'

end Cert.KernelIdeal.Val

end
-- ==== Proof.KernelArray1.lean ====
/-
  The second layer's grid, from blocks to the two whole arrays.

  The grid has 50 steps; step t reads rows 2000·t … 2000·t + 1999 of the neighbourhood means of the hidden features
  and of the hidden features themselves, the four transposed weight matrices and the two biases whole, and writes back
  rows 2000·t … 2000·t + 1999 of the class head (16 columns) and of the domain head (2 columns). Row r of either
  result is written by step r / 2000, and every entry of either array is

      out[i, q] = Σ_c mean[i,c]·Wa[c,q] + Σ_c hidden[i,c]·Wb[c,q] + b[q]

  with that head's weights and bias, as one function of the arrays the grid finds at its entry, whatever those are.
-/
import proofs.«129361_j51187420233864_2_alg».proof.Proof.KernelIdealFrameP
import proofs.«129361_j51187420233864_2_alg».proof.Proof.KernelBlock

set_option maxRecDepth 16384

noncomputable section

namespace Cert.KernelIdeal.Val

open Cert.KernelIdeal Cert.KernelIdeal.Gen Cert.KernelIdeal.GenP
open Idealize.ShloMosaic Idealize.ShloMosaic.TcCoe Idealize.ShloMosaic.ValueIdx
open Idealize.SL Idealize.SL.Sem
open Idealize.ShloMosaic.Pipeline (Dat Cfg Window)
open scoped BigOperators

theorem hz2' : (![0, 0] : Fin 2 → Nat) = fun _ => 0 := funext fun a => by fin_cases a <;> rfl
theorem hz1' : (![0] : Fin 1 → Nat) = fun _ => 0 := funext fun a => by fin_cases a; rfl

/-- The printed index maps over the 50 steps: the two row-blocked inputs and the two outputs move together down the
    rows, at block column 0; the weights and the biases stay at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

variable (V : (c : Dev nD) → (b : Ref sig .tc) → Buf (Elt Ideal) ((c : Thread nD τ).loc b))

/-- The second layer's class head as one function of the whole arrays: neighbourhood means `A` of the hidden features
    `H`, the transposed weights `Wa`, `Wb` : [128, 16] and the bias. -/
def layer2c (A H : FVec Ideal S100000x128 .f32) (Wa Wb : FVec Ideal S128x16 .f32) (b : FVec Ideal S16 .f32) :
    FVec Ideal S100000x16 .f32 :=
  fun j => ((∑ c : Fin 128, A (ix2 (j 0 : Fin 100000) c) * Wa (ix2 c (j 1 : Fin 16)))
      + ∑ c : Fin 128, H (ix2 (j 0 : Fin 100000) c) * Wb (ix2 c (j 1 : Fin 16))) + b (ix1 (j 1 : Fin 16))

set_option maxHeartbeats 1600000 in
/-- What step `t` writes back to the class head's array is block `t` of `layer2c` of the arrays the grid found. -/
theorem flushed1_8 (c : Dev nD) (t : Fin cfg1.N) :
    (dat1 V c).flushed 8 t = ((cfg1.win 8).blk t).view.read (Elt Ideal)
      (layer2c (V c main_v44) (V c main_v25) (V c main_v45) (V c main_v46) (V c main_arg7)) := by
  show (cfg1.win 8).cut (grid1.coords t) ((dat1 V c).after 8 t) = _
  rw [after1_8]
  unfold out1_8
  rw [View.canon_unit_zero hz2']
  simp only [View.ld_unit_zero (S := S2000x128) hz2', View.ld_unit_zero (S := S128x16) hz2', View.ld_unit_zero (S := S16) hz1']
  obtain ⟨e00, e01, e10, e11, e20, e21, e30, e31, e40, e50, e51, e60, e61, e70, e80, e81, e90, e91⟩ := idx_facts1 t
  funext j
  obtain ⟨p, q, rfl⟩ : ∃ (p : Fin 2000) (q : Fin 16), j = ix2 p q := ⟨j 0, j 1, eq_ix2 j⟩
  refine (pay_layer2_class (iblk1 V c 0 t) (iblk1 V c 1 t) (iblk1 V c 2 t) (iblk1 V c 3 t) (iblk1 V c 4 t) p q).trans ?_
  let A : FVec Ideal S100000x128 .f32 := V c main_v44
  let H : FVec Ideal S100000x128 .f32 := V c main_v25
  let Wa : FVec Ideal S128x16 .f32 := V c main_v45
  let Wb : FVec Ideal S128x16 .f32 := V c main_v46
  let b : FVec Ideal S16 .f32 := V c main_arg7
  show ((∑ k : Fin 128, A (((cfg1.win 0).blk t).view.emb (ix2 p k)) * Wa (((cfg1.win 2).blk t).view.emb (ix2 k q)))
        + ∑ k : Fin 128, H (((cfg1.win 1).blk t).view.emb (ix2 p k)) * Wb (((cfg1.win 3).blk t).view.emb (ix2 k q)))
        + b (((cfg1.win 4).blk t).view.emb (ix1 q))
      = layer2c A H Wa Wb b (((cfg1.win 8).blk t).view.emb (ix2 p q))
  have hp : p.val < 2000 := p.isLt
  have hq : q.val < 16 := q.isLt
  have r0 : ∀ k : Fin 128, ((cfg1.win 0).blk t).view.emb (ix2 p k)
      = (ix2 ((((cfg1.win 8).blk t).view.emb (ix2 p q)) 0 : Fin 100000) k : S100000x128.Idx) := fun k => by
    funext a; apply Fin.ext
    match a with
    | ⟨0, _⟩ => show win1_0.index t (0 : Fin 2) * 2000 + 1 * p.val = win1_8.index t (0 : Fin 2) * 2000 + 1 * p.val; omega
    | ⟨1, _⟩ => show win1_0.index t (1 : Fin 2) * 128 + 1 * k.val = k.val; omega
  have r1 : ∀ k : Fin 128, ((cfg1.win 1).blk t).view.emb (ix2 p k)
      = (ix2 ((((cfg1.win 8).blk t).view.emb (ix2 p q)) 0 : Fin 100000) k : S100000x128.Idx) := fun k => by
    funext a; apply Fin.ext
    match a with
    | ⟨0, _⟩ => show win1_1.index t (0 : Fin 2) * 2000 + 1 * p.val = win1_8.index t (0 : Fin 2) * 2000 + 1 * p.val; omega
    | ⟨1, _⟩ => show win1_1.index t (1 : Fin 2) * 128 + 1 * k.val = k.val; omega
  have r2 : ∀ k : Fin 128, ((cfg1.win 2).blk t).view.emb (ix2 k q)
      = (ix2 k ((((cfg1.win 8).blk t).view.emb (ix2 p q)) 1 : Fin 16) : S128x16.Idx) := fun k => by
    funext a; apply Fin.ext
    match a with
    | ⟨0, _⟩ => show win1_2.index t (0 : Fin 2) * 128 + 1 * k.val = k.val; omega
    | ⟨1, _⟩ => show win1_2.index t (1 : Fin 2) * 16 + 1 * q.val = win1_8.index t (1 : Fin 2) * 16 + 1 * q.val; omega
  have r3 : ∀ k : Fin 128, ((cfg1.win 3).blk t).view.emb (ix2 k q)
      = (ix2 k ((((cfg1.win 8).blk t).view.emb (ix2 p q)) 1 : Fin 16) : S128x16.Idx) := fun k => by
    funext a; apply Fin.ext
    match a with
    | ⟨0, _⟩ => show win1_3.index t (0 : Fin 2) * 128 + 1 * k.val = k.val; omega
    | ⟨1, _⟩ => show win1_3.index t (1 : Fin 2) * 16 + 1 * q.val = win1_8.index t (1 : Fin 2) * 16 + 1 * q.val; omega
  have r4 : ((cfg1.win 4).blk t).view.emb (ix1 q)
      = (ix1 ((((cfg1.win 8).blk t).view.emb (ix2 p q)) 1 : Fin 16) : S16.Idx) := by
    funext a; apply Fin.ext
    match a with
    | ⟨0, _⟩ => show win1_4.index t (0 : Fin 1) * 16 + 1 * q.val = win1_8.index t (1 : Fin 2) * 16 + 1 * q.val; omega
  unfold layer2c
  simp only [r0, r1, r2, r3, r4]

/-- An index of the class head's array is in step `t`'s block iff each coordinate is in the block's range on its axis. -/
theorem mem_blk1_8 (t : Fin cfg1.N) (i : S100000x16.Idx) :
    i ∈ ((cfg1.win 8).blk t).view.set ↔ ∀ a : Fin 2, win1_8.index t a * S2000x16.size a ≤ (i a).val ∧ (i a).val < win1_8.index t a * S2000x16.size a + S2000x16.size a := by
  show i ∈ ((View.whole main_v49_0).slice (win1_8.rect t)).set ↔ _
  rw [View.set_slice_whole, Rect.mem_set_unit]
  exact Iff.rfl

/-- Every entry of the class head's array lies in the block of the step that owns its row. -/
theorem cover1_8' (i : S100000x16.Idx) :
    ∃ t : Fin cfg1.N, (cfg1.win 8).flush t = true ∧ i ∈ ((cfg1.win 8).blk t).view.set := by
  have hi0 : (i 0).val < 100000 := (i 0).isLt
  have hi1 : (i 1).val < 16 := (i 1).isLt
  have hN : grid1.N = 50 := N_1
  let t : Fin cfg1.N := ⟨(i 0).val / 2000, by show (i 0).val / 2000 < grid1.N; omega⟩
  obtain ⟨-, -, -, -, -, -, -, -, -, -, -, -, -, -, e80, e81, e90, e91⟩ := idx_facts1 t
  have ht : t.val = (i 0).val / 2000 := rfl
  refine ⟨t, flush1_8 t, ?_⟩
  rw [mem_blk1_8]
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 16 ≤ (i 1).val ∧ (i 1).val < win1_8.index t (1 : Fin 2) * 16 + 16; omega

/-- The class head's array after the second grid: `layer2c` of the arrays the grid found at its entry. -/
theorem final1_8 (c : Dev nD) :
    (dat1 V c).arrAt 8 cfg1.N = layer2c (V c main_v44) (V c main_v25) (V c main_v45) (V c main_v46) (V c main_arg7) :=
  (dat1 V c).arrAt_eq_of_cover 8 _ (fun t _ => flushed1_8 V c t) cover1_8'

/-- The second layer's domain head as one function of the whole arrays: neighbourhood means `A` of the hidden features
    `H`, the transposed weights `Wa`, `Wb` : [128, 2] and the bias. -/
def layer2d (A H : FVec Ideal S100000x128 .f32) (Wa Wb : FVec Ideal S128x2 .f32) (b : FVec Ideal S2 .f32) :
    FVec Ideal S100000x2 .f32 :=
  fun j => ((∑ c : Fin 128, A (ix2 (j 0 : Fin 100000) c) * Wa (ix2 c (j 1 : Fin 2)))
      + ∑ c : Fin 128, H (ix2 (j 0 : Fin 100000) c) * Wb (ix2 c (j 1 : Fin 2))) + b (ix1 (j 1 : Fin 2))

set_option maxHeartbeats 1600000 in
/-- What step `t` writes back to the domain head's array is block `t` of `layer2d` of the arrays the grid found. -/
theorem flushed1_9 (c : Dev nD) (t : Fin cfg1.N) :
    (dat1 V c).flushed 9 t = ((cfg1.win 9).blk t).view.read (Elt Ideal)
      (layer2d (V c main_v44) (V c main_v25) (V c main_v47) (V c main_v48) (V c main_arg10)) := by
  show (cfg1.win 9).cut (grid1.coords t) ((dat1 V c).after 9 t) = _
  rw [after1_9]
  unfold out1_9
  rw [View.canon_unit_zero hz2']
  simp only [View.ld_unit_zero (S := S2000x128) hz2', View.ld_unit_zero (S := S128x2) hz2', View.ld_unit_zero (S := S2) hz1']
  obtain ⟨e00, e01, e10, e11, e20, e21, e30, e31, e40, e50, e51, e60, e61, e70, e80, e81, e90, e91⟩ := idx_facts1 t
  funext j
  obtain ⟨p, q, rfl⟩ : ∃ (p : Fin 2000) (q : Fin 2), j = ix2 p q := ⟨j 0, j 1, eq_ix2 j⟩
  refine (pay_layer2_domain (iblk1 V c 0 t) (iblk1 V c 1 t) (iblk1 V c 5 t) (iblk1 V c 6 t) (iblk1 V c 7 t) p q).trans ?_
  let A : FVec Ideal S100000x128 .f32 := V c main_v44
  let H : FVec Ideal S100000x128 .f32 := V c main_v25
  let Wa : FVec Ideal S128x2 .f32 := V c main_v47
  let Wb : FVec Ideal S128x2 .f32 := V c main_v48
  let b : FVec Ideal S2 .f32 := V c main_arg10
  show ((∑ k : Fin 128, A (((cfg1.win 0).blk t).view.emb (ix2 p k)) * Wa (((cfg1.win 5).blk t).view.emb (ix2 k q)))
        + ∑ k : Fin 128, H (((cfg1.win 1).blk t).view.emb (ix2 p k)) * Wb (((cfg1.win 6).blk t).view.emb (ix2 k q)))
        + b (((cfg1.win 7).blk t).view.emb (ix1 q))
      = layer2d A H Wa Wb b (((cfg1.win 9).blk t).view.emb (ix2 p q))
  have hp : p.val < 2000 := p.isLt
  have hq : q.val < 2 := q.isLt
  have r0 : ∀ k : Fin 128, ((cfg1.win 0).blk t).view.emb (ix2 p k)
      = (ix2 ((((cfg1.win 9).blk t).view.emb (ix2 p q)) 0 : Fin 100000) k : S100000x128.Idx) := fun k => by
    funext a; apply Fin.ext
    match a with
    | ⟨0, _⟩ => show win1_0.index t (0 : Fin 2) * 2000 + 1 * p.val = win1_9.index t (0 : Fin 2) * 2000 + 1 * p.val; omega
    | ⟨1, _⟩ => show win1_0.index t (1 : Fin 2) * 128 + 1 * k.val = k.val; omega
  have r1 : ∀ k : Fin 128, ((cfg1.win 1).blk t).view.emb (ix2 p k)
      = (ix2 ((((cfg1.win 9).blk t).view.emb (ix2 p q)) 0 : Fin 100000) k : S100000x128.Idx) := fun k => by
    funext a; apply Fin.ext
    match a with
    | ⟨0, _⟩ => show win1_1.index t (0 : Fin 2) * 2000 + 1 * p.val = win1_9.index t (0 : Fin 2) * 2000 + 1 * p.val; omega
    | ⟨1, _⟩ => show win1_1.index t (1 : Fin 2) * 128 + 1 * k.val = k.val; omega
  have r2 : ∀ k : Fin 128, ((cfg1.win 5).blk t).view.emb (ix2 k q)
      = (ix2 k ((((cfg1.win 9).blk t).view.emb (ix2 p q)) 1 : Fin 2) : S128x2.Idx) := fun k => by
    funext a; apply Fin.ext
    match a with
    | ⟨0, _⟩ => show win1_5.index t (0 : Fin 2) * 128 + 1 * k.val = k.val; omega
    | ⟨1, _⟩ => show win1_5.index t (1 : Fin 2) * 2 + 1 * q.val = win1_9.index t (1 : Fin 2) * 2 + 1 * q.val; omega
  have r3 : ∀ k : Fin 128, ((cfg1.win 6).blk t).view.emb (ix2 k q)
      = (ix2 k ((((cfg1.win 9).blk t).view.emb (ix2 p q)) 1 : Fin 2) : S128x2.Idx) := fun k => by
    funext a; apply Fin.ext
    match a with
    | ⟨0, _⟩ => show win1_6.index t (0 : Fin 2) * 128 + 1 * k.val = k.val; omega
    | ⟨1, _⟩ => show win1_6.index t (1 : Fin 2) * 2 + 1 * q.val = win1_9.index t (1 : Fin 2) * 2 + 1 * q.val; omega
  have r4 : ((cfg1.win 7).blk t).view.emb (ix1 q)
      = (ix1 ((((cfg1.win 9).blk t).view.emb (ix2 p q)) 1 : Fin 2) : S2.Idx) := by
    funext a; apply Fin.ext
    match a with
    | ⟨0, _⟩ => show win1_7.index t (0 : Fin 1) * 2 + 1 * q.val = win1_9.index t (1 : Fin 2) * 2 + 1 * q.val; omega
  unfold layer2d
  simp only [r0, r1, r2, r3, r4]

/-- An index of the domain head's array is in step `t`'s block iff each coordinate is in the block's range on its axis. -/
theorem mem_blk1_9 (t : Fin cfg1.N) (i : S100000x2.Idx) :
    i ∈ ((cfg1.win 9).blk t).view.set ↔ ∀ a : Fin 2, win1_9.index t a * S2000x2.size a ≤ (i a).val ∧ (i a).val < win1_9.index t a * S2000x2.size a + S2000x2.size a := by
  show i ∈ ((View.whole main_v49_1).slice (win1_9.rect t)).set ↔ _
  rw [View.set_slice_whole, Rect.mem_set_unit]
  exact Iff.rfl

/-- Every entry of the domain head's array lies in the block of the step that owns its row. -/
theorem cover1_9' (i : S100000x2.Idx) :
    ∃ t : Fin cfg1.N, (cfg1.win 9).flush t = true ∧ i ∈ ((cfg1.win 9).blk t).view.set := by
  have hi0 : (i 0).val < 100000 := (i 0).isLt
  have hi1 : (i 1).val < 2 := (i 1).isLt
  have hN : grid1.N = 50 := N_1
  let t : Fin cfg1.N := ⟨(i 0).val / 2000, by show (i 0).val / 2000 < grid1.N; omega⟩
  obtain ⟨-, -, -, -, -, -, -, -, -, -, -, -, -, -, e80, e81, e90, e91⟩ := idx_facts1 t
  have ht : t.val = (i 0).val / 2000 := rfl
  refine ⟨t, flush1_9 t, ?_⟩
  rw [mem_blk1_9]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 2 ≤ (i 1).val ∧ (i 1).val < win1_9.index t (1 : Fin 2) * 2 + 2; omega

/-- The domain head's array after the second grid: `layer2d` of the arrays the grid found at its entry. -/
theorem final1_9 (c : Dev nD) :
    (dat1 V c).arrAt 9 cfg1.N = layer2d (V c main_v44) (V c main_v25) (V c main_v47) (V c main_v48) (V c main_arg10) :=
  (dat1 V c).arrAt_eq_of_cover 9 _ (fun t _ => flushed1_9 V c t) cover1_9'

end Cert.KernelIdeal.Val

end
-- ==== Proof.SageSpec.lean ====
/-
  The arithmetic of one graph-convolution layer, and the two laws that join the two programs.

  A layer combines, for every node i and output channel c, the neighbourhood mean A and the node's own
  features B through two weight matrices stored channel-major (W[c, k]) and a bias:

      out[i, c] = Σ_k A[i, k] · Wl[c, k]  +  Σ_k B[i, k] · Wr[c, k]  +  b[c].

  One program adds the bias last, the other between the two sums; addition on the extended reals is
  commutative and associative, so the two arrangements agree everywhere, infinities included
  (`convR_eq_convK`). The second law is about the "gradient reversal" of the hidden features,
  (-1/2) · h + (3/2) · h, which is h itself when h is a real number (`gradRev_real`; it fails at the
  infinities, where the two products have opposite signs). The remaining lemmas say that a layer of
  real inputs is real, so that the hidden features are real whenever the inputs are.
-/
import Idealize.ShloMosaic.PureOps.Ideal
import Idealize.ShloMosaic.Lib.ValueIdx
import proofs.«129361_j51187420233864_2_alg».proof.Proof.LibRealChain

noncomputable section

namespace Cert.Sage

open Idealize.ShloMosaic Idealize.ShloMosaic.ValueIdx Cert.Lib
open scoped BigOperators

/-- One layer with the bias added LAST: (Σ_k A[i,k]·Wl[c,k] + Σ_k B[i,k]·Wr[c,k]) + b[c]. -/
def convK {n ci co : Nat} (A B : (⟨2, ![n, ci]⟩ : Shape).Idx → EReal) (Wl Wr : (⟨2, ![co, ci]⟩ : Shape).Idx → EReal)
    (b : (⟨1, ![co]⟩ : Shape).Idx → EReal) : (⟨2, ![n, co]⟩ : Shape).Idx → EReal :=
  fun j => ((∑ k : Fin ci, A (ix2 (j 0 : Fin n) k) * Wl (ix2 (j 1 : Fin co) k))
      + ∑ k : Fin ci, B (ix2 (j 0 : Fin n) k) * Wr (ix2 (j 1 : Fin co) k)) + b (ix1 (j 1 : Fin co))

/-- One layer with the bias added BETWEEN the two sums: (Σ_k A[i,k]·Wl[c,k] + b[c]) + Σ_k B[i,k]·Wr[c,k]. -/
def convR {n ci co : Nat} (A B : (⟨2, ![n, ci]⟩ : Shape).Idx → EReal) (Wl Wr : (⟨2, ![co, ci]⟩ : Shape).Idx → EReal)
    (b : (⟨1, ![co]⟩ : Shape).Idx → EReal) : (⟨2, ![n, co]⟩ : Shape).Idx → EReal :=
  fun j => ((∑ k : Fin ci, A (ix2 (j 0 : Fin n) k) * Wl (ix2 (j 1 : Fin co) k)) + b (ix1 (j 1 : Fin co)))
      + ∑ k : Fin ci, B (ix2 (j 0 : Fin n) k) * Wr (ix2 (j 1 : Fin co) k)

/-- The two arrangements of a layer are one function: (s + t) + b = (s + b) + t in any commutative monoid. -/
theorem convR_eq_convK {n ci co : Nat} (A B : (⟨2, ![n, ci]⟩ : Shape).Idx → EReal)
    (Wl Wr : (⟨2, ![co, ci]⟩ : Shape).Idx → EReal) (b : (⟨1, ![co]⟩ : Shape).Idx → EReal) :
    convR A B Wl Wr b = convK A B Wl Wr b := by
  funext j
  unfold convR convK
  exact add_right_comm _ _ _

/-- The layer at the index (a, c), coordinates explicit. -/
theorem convK_apply {n ci co : Nat} (A B : (⟨2, ![n, ci]⟩ : Shape).Idx → EReal)
    (Wl Wr : (⟨2, ![co, ci]⟩ : Shape).Idx → EReal) (b : (⟨1, ![co]⟩ : Shape).Idx → EReal) (a : Fin n) (c : Fin co) :
    convK A B Wl Wr b (ix2 a c)
      = ((∑ k : Fin ci, A (ix2 a k) * Wl (ix2 c k)) + ∑ k : Fin ci, B (ix2 a k) * Wr (ix2 c k)) + b (ix1 c) := rfl

/-- The rectifier max(·, 0), element by element. -/
def relu {s : Shape} (f : s.Idx → EReal) : s.Idx → EReal := fun j => max (f j) 0

/-- A layer of real inputs is real, entry by entry. -/
theorem convK_isReal {n ci co : Nat} {A B : (⟨2, ![n, ci]⟩ : Shape).Idx → EReal}
    {Wl Wr : (⟨2, ![co, ci]⟩ : Shape).Idx → EReal} {b : (⟨1, ![co]⟩ : Shape).Idx → EReal}
    (hA : ∀ i, IsReal (A i)) (hB : ∀ i, IsReal (B i)) (hl : ∀ i, IsReal (Wl i)) (hr : ∀ i, IsReal (Wr i))
    (hb : ∀ i, IsReal (b i)) (j : (⟨2, ![n, co]⟩ : Shape).Idx) : IsReal (convK A B Wl Wr b j) := by
  unfold convK
  exact ((IsReal.sum_univ_mul _ _ (fun _ => hA _) (fun _ => hl _)).add
    (IsReal.sum_univ_mul _ _ (fun _ => hB _) (fun _ => hr _))).add (hb _)

/-- The rectifier of a real is a real. -/
theorem relu_isReal {s : Shape} {f : s.Idx → EReal} (hf : ∀ i, IsReal (f i)) (j : s.Idx) : IsReal (relu f j) :=
  (hf j).max isReal_zero

/-- (-1/2)·h + (3/2)·h = h for a REAL h: on the reals this is distributivity; at an infinity the two products are
    infinities of opposite signs and the sum is not h. -/
theorem gradRev_real {h : EReal} (hh : IsReal h) :
    ((-(1 / 2) : ℝ) : EReal) * h + (((3 / 2 : ℝ) : ℝ) : EReal) * h = h := by
  obtain ⟨r, rfl⟩ := hh
  rw [← EReal.coe_mul, ← EReal.coe_mul, ← EReal.coe_add]
  congr 1
  ring

end Cert.Sage

end
-- ==== Proof.RefRead.lean ====
/-
  The reference program's three layers, read entry by entry.

  hidden = relu(layer(mean(x), x; W1l, W1r, b1)), class = layer(mean(hidden), hidden; W2l, W2r, b2) and
  domain = layer(mean(g), g; Wdl, Wdr, bd) with g = (-1/2)·hidden + (3/2)·hidden, each layer with its bias added
  between its two sums (`Cert.Sage.convR`). The neighbourhood mean is carried whole, as one function of the
  feature array and the edge list, and never opened here. Where the hidden features are real, g is the hidden
  features, and the domain head is the same layer of the same mean.
-/
import proofs.«129361_j51187420233864_2_alg».proof.Proof.Gen.ReferenceIdeal.Read
import proofs.«129361_j51187420233864_2_alg».proof.Proof.SageSpec

noncomputable section

namespace Cert.Sage.Ref

open Idealize.ShloMosaic Idealize.ShloMosaic.ValueIdx Cert.Lib Cert.ReferenceIdeal Cert.ReferenceIdeal.Gen Cert.ReferenceIdeal.Read

/-- The mean of a 128-channel feature array `h` over each node's incoming edges: the reference's operations %32–%54
    with `h` in the place of the hidden features. -/
def mean128 (h : FVec Ideal S100000x128 .f32) (E : IVec S2x800000 32) : FVec Ideal S100000x128 .f32 :=
  Host.divf (Host.scatterAdd scatter_S100000x128_S800000x1_S800000x128_1_0_0_1 (val_main_v43 (F := Ideal))
      (val_main_v44 (F := Ideal) E)
      (Host.gather gather_S100000x128_S800000x1_S800000x128_1_0_n_n_0_1_1128 h (val_main_v41 (F := Ideal) E)))
    (val_main_v53 (F := Ideal) E)

/-- The hidden features are the rectified first layer of the input features and their mean. -/
theorem ref_hidden (x0 : FVec Ideal S100000x64 .f32) (x1 : IVec S2x800000 32) (x2 x3 : FVec Ideal S128x64 .f32)
    (x4 : FVec Ideal S128 .f32) :
    val_main_v31 (F := Ideal) x0 x1 x2 x3 x4 = Cert.Sage.relu (Cert.Sage.convR (val_main_v22 (F := Ideal) x0 x1) x0 x2 x3 x4) := by
  funext j
  obtain ⟨a, c, rfl⟩ : ∃ (a : Fin 100000) (c : Fin 128), j = ix2 a c := ⟨j 0, j 1, eq_ix2 j⟩
  have e1 : ∀ k : Fin 64, lidx_main_v24 (ix2 a c) k = ix2 a k := fun k => funext fun d => Fin.ext (by match d with | ⟨0, _⟩ => rfl | ⟨1, _⟩ => rfl)
  have e2 : ∀ k : Fin 64, idx_main_v23 (ridx_main_v24 (ix2 a c) k) = ix2 c k := fun k => funext fun d => Fin.ext (by match d with | ⟨0, _⟩ => rfl | ⟨1, _⟩ => rfl)
  have e3 : idx_main_v25 (idx_main_v26 (ix2 a c)) = ix1 c :=
    funext fun d => Fin.ext (by match d with | ⟨0, _⟩ => rfl)
  have e4 : ∀ k : Fin 64, lidx_main_v29 (ix2 a c) k = ix2 a k := fun k => funext fun d => Fin.ext (by match d with | ⟨0, _⟩ => rfl | ⟨1, _⟩ => rfl)
  have e5 : ∀ k : Fin 64, idx_main_v28 (ridx_main_v29 (ix2 a c) k) = ix2 c k := fun k => funext fun d => Fin.ext (by match d with | ⟨0, _⟩ => rfl | ⟨1, _⟩ => rfl)
  rw [val_main_v31_apply, val_main_v30_apply, val_main_v27_apply, val_main_v24_apply, val_main_v29_apply,
    val_main_v26_apply, val_main_v25_apply, val_main_call0_v0_apply, val_main_call0_cst_apply]
  generalize val_main_v22 (F := Ideal) x0 x1 = M
  simp only [val_main_v23_apply, val_main_v28_apply, e1, e2, e3, e4, e5, Ideal.addf_def, Ideal.maximumf_def,
    Ideal.ofBits_def, Ideal.ofBits_zero_f32]
  unfold Cert.Sage.relu Cert.Sage.convR
  rfl

/-- The mean fed to the class head is `mean128` of the hidden features: the two are the same composition of the
    gather, the scatter-add into zeros and the division by the clamped in-degree. -/
theorem mean_hidden (x0 : FVec Ideal S100000x64 .f32) (x1 : IVec S2x800000 32) (x2 x3 : FVec Ideal S128x64 .f32)
    (x4 : FVec Ideal S128 .f32) :
    val_main_v54 (F := Ideal) x0 x1 x2 x3 x4 = mean128 (val_main_v31 (F := Ideal) x0 x1 x2 x3 x4) x1 := by
  unfold val_main_v54 val_main_v45 val_main_v42 mean128
  rfl

/-- The class head is the second layer of the hidden features and their mean. -/
theorem ref_class (x0 : FVec Ideal S100000x64 .f32) (x1 : IVec S2x800000 32) (x2 x3 : FVec Ideal S128x64 .f32)
    (x4 : FVec Ideal S128 .f32) (x5 x6 : FVec Ideal S16x128 .f32) (x7 : FVec Ideal S16 .f32) :
    val_main_v62 (F := Ideal) x0 x1 x2 x3 x4 x5 x6 x7
      = Cert.Sage.convR (mean128 (val_main_v31 (F := Ideal) x0 x1 x2 x3 x4) x1) (val_main_v31 (F := Ideal) x0 x1 x2 x3 x4) x5 x6 x7 := by
  funext j
  obtain ⟨a, c, rfl⟩ : ∃ (a : Fin 100000) (c : Fin 16), j = ix2 a c := ⟨j 0, j 1, eq_ix2 j⟩
  have e1 : ∀ k : Fin 128, lidx_main_v56 (ix2 a c) k = ix2 a k := fun k => funext fun d => Fin.ext (by match d with | ⟨0, _⟩ => rfl | ⟨1, _⟩ => rfl)
  have e2 : ∀ k : Fin 128, idx_main_v55 (ridx_main_v56 (ix2 a c) k) = ix2 c k := fun k => funext fun d => Fin.ext (by match d with | ⟨0, _⟩ => rfl | ⟨1, _⟩ => rfl)
  have e3 : idx_main_v57 (idx_main_v58 (ix2 a c)) = ix1 c :=
    funext fun d => Fin.ext (by match d with | ⟨0, _⟩ => rfl)
  have e4 : ∀ k : Fin 128, lidx_main_v61 (ix2 a c) k = ix2 a k := fun k => funext fun d => Fin.ext (by match d with | ⟨0, _⟩ => rfl | ⟨1, _⟩ => rfl)
  have e5 : ∀ k : Fin 128, idx_main_v60 (ridx_main_v61 (ix2 a c) k) = ix2 c k := fun k => funext fun d => Fin.ext (by match d with | ⟨0, _⟩ => rfl | ⟨1, _⟩ => rfl)
  rw [val_main_v62_apply, val_main_v59_apply, val_main_v56_apply, val_main_v61_apply,
    val_main_v58_apply, val_main_v57_apply, mean_hidden]
  generalize val_main_v31 (F := Ideal) x0 x1 x2 x3 x4 = H
  generalize mean128 H x1 = A
  simp only [val_main_v55_apply, val_main_v60_apply, e1, e2, e3, e4, e5, Ideal.addf_def]
  unfold Cert.Sage.convR
  rfl

/-- The two float literals of the reversed-gradient copy: the words of -1/2 and of 3/2. -/
theorem ofBits_neg_half : Ideal.ofBits .f32 0xBF000000#32 = ((-(1 / 2) : ℝ) : EReal) := by
  simp [Ideal.ofBits, Ideal.ieee, -EReal.coe_mul]
  norm_num

theorem ofBits_three_halves : Ideal.ofBits .f32 0x3FC00000#32 = (((3 / 2 : ℝ) : ℝ) : EReal) := by
  simp [Ideal.ofBits, Ideal.ieee, -EReal.coe_mul]
  norm_num

/-- Where the hidden features are real, (-1/2)·h + (3/2)·h is h, entry by entry. -/
theorem reversed_eq_hidden (x0 : FVec Ideal S100000x64 .f32) (x1 : IVec S2x800000 32) (x2 x3 : FVec Ideal S128x64 .f32)
    (x4 : FVec Ideal S128 .f32) (hreal : ∀ i, IsReal (val_main_v31 (F := Ideal) x0 x1 x2 x3 x4 i)) :
    val_main_v67 (F := Ideal) x0 x1 x2 x3 x4 = val_main_v31 (F := Ideal) x0 x1 x2 x3 x4 := by
  funext i
  rw [val_main_v67_apply, val_main_v64_apply, val_main_v66_apply, val_main_v63_apply, val_main_v65_apply,
    val_main_cst_10_apply, val_main_cst_11_apply]
  have h := hreal i
  generalize val_main_v31 (F := Ideal) x0 x1 x2 x3 x4 i = h31 at h ⊢
  simp only [Ideal.addf_def, Ideal.mulf_def, Ideal.ofBits_def, ofBits_neg_half, ofBits_three_halves]
  exact Cert.Sage.gradRev_real h

/-- The second copy of the edge-list operations is the first: the same slices, casts, comparisons and broadcasts
    of the same edge list, and the same zero splat. -/
theorem src_copy (x1 : IVec S2x800000 32) : val_main_v77 (F := Ideal) x1 = val_main_v41 (F := Ideal) x1 := by
  unfold val_main_v77 val_main_v76 val_main_v75 val_main_v74 val_main_v73 val_main_v72 val_main_v69 val_main_v68
    val_main_c_12 val_main_c_13
    val_main_v41 val_main_v40 val_main_v39 val_main_v38 val_main_v37 val_main_v36 val_main_v33 val_main_v32
    val_main_c_4 val_main_c_5
  rfl

theorem dst_copy (x1 : IVec S2x800000 32) : val_main_v80 (F := Ideal) x1 = val_main_v44 (F := Ideal) x1 := by
  unfold val_main_v80 val_main_v71 val_main_v70 val_main_v44 val_main_v35 val_main_v34
  rfl

theorem zero_copy : val_main_v79 (F := Ideal) = val_main_v43 (F := Ideal) := by
  unfold val_main_v79 val_main_cst_14 val_main_v43 val_main_cst_6
  rfl

theorem degree_copy (x1 : IVec S2x800000 32) : val_main_v89 (F := Ideal) x1 = val_main_v53 (F := Ideal) x1 := by
  unfold val_main_v89 val_main_v88 val_main_v87 val_main_v86 val_main_v85 val_main_v84 val_main_v83 val_main_v82
    val_main_v71 val_main_v70 val_main_cst_15 val_main_cst_16 val_main_cst_17
    val_main_v53 val_main_v52 val_main_v51 val_main_v50 val_main_v49 val_main_v48 val_main_v47 val_main_v46
    val_main_v35 val_main_v34 val_main_cst_7 val_main_cst_8 val_main_cst_9
  rfl

/-- The mean fed to the domain head is `mean128` of the reversed-gradient copy. -/
theorem mean_reversed (x0 : FVec Ideal S100000x64 .f32) (x1 : IVec S2x800000 32) (x2 x3 : FVec Ideal S128x64 .f32)
    (x4 : FVec Ideal S128 .f32) :
    val_main_v90 (F := Ideal) x0 x1 x2 x3 x4 = mean128 (val_main_v67 (F := Ideal) x0 x1 x2 x3 x4) x1 := by
  unfold val_main_v90 val_main_v81 val_main_v78 mean128
  rw [src_copy, dst_copy, zero_copy, degree_copy]

/-- The domain head is the same layer with its own weights, WHEN the hidden features are real: the reversed-gradient
    copy of the hidden features is then the hidden features. -/
theorem ref_domain (x0 : FVec Ideal S100000x64 .f32) (x1 : IVec S2x800000 32) (x2 x3 : FVec Ideal S128x64 .f32)
    (x4 : FVec Ideal S128 .f32) (x8 x9 : FVec Ideal S2x128 .f32) (x10 : FVec Ideal S2 .f32)
    (hreal : ∀ i, IsReal (val_main_v31 (F := Ideal) x0 x1 x2 x3 x4 i)) :
    val_main_v98 (F := Ideal) x0 x1 x2 x3 x4 x8 x9 x10
      = Cert.Sage.convR (mean128 (val_main_v31 (F := Ideal) x0 x1 x2 x3 x4) x1) (val_main_v31 (F := Ideal) x0 x1 x2 x3 x4) x8 x9 x10 := by
  funext j
  obtain ⟨a, c, rfl⟩ : ∃ (a : Fin 100000) (c : Fin 2), j = ix2 a c := ⟨j 0, j 1, eq_ix2 j⟩
  have e1 : ∀ k : Fin 128, lidx_main_v92 (ix2 a c) k = ix2 a k := fun k => funext fun d => Fin.ext (by match d with | ⟨0, _⟩ => rfl | ⟨1, _⟩ => rfl)
  have e2 : ∀ k : Fin 128, idx_main_v91 (ridx_main_v92 (ix2 a c) k) = ix2 c k := fun k => funext fun d => Fin.ext (by match d with | ⟨0, _⟩ => rfl | ⟨1, _⟩ => rfl)
  have e3 : idx_main_v93 (idx_main_v94 (ix2 a c)) = ix1 c :=
    funext fun d => Fin.ext (by match d with | ⟨0, _⟩ => rfl)
  have e4 : ∀ k : Fin 128, lidx_main_v97 (ix2 a c) k = ix2 a k := fun k => funext fun d => Fin.ext (by match d with | ⟨0, _⟩ => rfl | ⟨1, _⟩ => rfl)
  have e5 : ∀ k : Fin 128, idx_main_v96 (ridx_main_v97 (ix2 a c) k) = ix2 c k := fun k => funext fun d => Fin.ext (by match d with | ⟨0, _⟩ => rfl | ⟨1, _⟩ => rfl)
  rw [val_main_v98_apply, val_main_v95_apply, val_main_v92_apply, val_main_v97_apply,
    val_main_v94_apply, val_main_v93_apply, mean_reversed, reversed_eq_hidden x0 x1 x2 x3 x4 hreal]
  generalize val_main_v31 (F := Ideal) x0 x1 x2 x3 x4 = H
  generalize mean128 H x1 = A
  simp only [val_main_v91_apply, val_main_v96_apply, e1, e2, e3, e4, e5, Ideal.addf_def]
  unfold Cert.Sage.convR
  rfl

end Cert.Sage.Ref

end
-- ==== Proof.RefMean.lean ====
/-
  The neighbourhood mean as a function of a feature array and the two edge-endpoint arrays.

  The mean over a node's incoming edges reads the edge list only through its two rows, the sources s and the
  targets d: gather the features at the sources (a negative source counted from the end), scatter-add them onto the
  targets, and divide by the in-degree clamped below by one. With s and d the two rows of the edge list this is the
  mean `mean128` of the edge list itself.
-/
import proofs.«129361_j51187420233864_2_alg».proof.Proof.RefRead

noncomputable section

namespace Cert.Sage.Ref

open Idealize.ShloMosaic Cert.ReferenceIdeal Cert.ReferenceIdeal.Gen Cert.ReferenceIdeal.Read

/-- The mean of the 128-channel features `h` over each node's incoming edges, the edges given by their source row `s`
    and target row `d`. -/
def meanOf (h : FVec Ideal S100000x128 .f32) (s d : IVec S800000 32) : FVec Ideal S100000x128 .f32 :=
  Host.divf
    (Host.scatterAdd scatter_S100000x128_S800000x1_S800000x128_1_0_0_1 (val_main_v43 (F := Ideal))
      (broadcastInDim S800000x1 ![0] bcast_S800000_S800000x1_0 d)
      (Host.gather gather_S100000x128_S800000x1_S800000x128_1_0_n_n_0_1_1128 h
        (broadcastInDim S800000x1 ![0] bcast_S800000_S800000x1_0
          (select (cmpi .slt s (val_main_v36 (F := Ideal))) (addi s (val_main_v38 (F := Ideal))) s))))
    (broadcastInDim S100000x128 ![0, 1] bcast_S100000x1_S100000x128_0_1
      (broadcastInDim S100000x1 ![0] bcast_S100000_S100000x1_0
        (maximumf
          (Host.scatterAdd scatter_S100000_S800000x1_S800000_n_0_0_1 (val_main_v47 (F := Ideal))
            (broadcastInDim S800000x1 ![0] bcast_S800000_S800000x1_0 d) (val_main_v46 (F := Ideal)))
          (val_main_v50 (F := Ideal)))))

/-- At the two rows of an edge list it is the mean over that edge list. -/
theorem meanOf_rows (h : FVec Ideal S100000x128 .f32) (E : IVec S2x800000 32) :
    meanOf h (val_main_v33 (F := Ideal) E) (val_main_v35 (F := Ideal) E) = mean128 h E := by
  unfold meanOf mean128 val_main_v53 val_main_v52 val_main_v51 val_main_v49 val_main_v48 val_main_v44 val_main_v41
    val_main_v40 val_main_v39 val_main_v37
  rfl

end Cert.Sage.Ref

end
-- ==== Proof.KernelHost.lean ====
/-
  The host operations around the two grids, read whole.

  Before the first grid the program computes, from the arguments, the neighbourhood mean of the input features
  (a gather along the edge sources, a scatter-add onto the edge targets, a division by the clamped in-degree) and
  the transposes of the first layer's two weight matrices; between the grids, the same mean of the hidden features
  the first grid left, and the transposes of the second layer's four weight matrices. These are, operation for
  operation, the reference program's own host operations on the same operands, so each buffer a grid reads is the
  reference's named stage of the arguments — the mean as one function of a feature array and the edge list, never
  opened. Each stretch of host operations is first read from an arbitrary starting memory, then placed in the run.
-/
import proofs.«129361_j51187420233864_2_alg».proof.Proof.KernelIdealFrameP
import proofs.«129361_j51187420233864_2_alg».proof.Proof.RefMean

set_option maxRecDepth 16384

noncomputable section

namespace Cert.KernelIdeal.Val

open Cert.KernelIdeal Cert.KernelIdeal.Gen Cert.KernelIdeal.GenP
open Idealize.ShloMosaic Idealize.ShloMosaic.TcCoe Idealize.ShloMosaic.StableHlo
open Idealize.SL Idealize.SL.Sem

/-! ## The stretch before the first grid, from any memory -/

set_option maxHeartbeats 4000000 in
/-- It leaves the neighbourhood mean of the input features in the first grid's window 0. -/
theorem after0_mean (Wv : Valuation τ sig (Elt Ideal)) :
    StableHlo.after hostOps0 Wv (Proc.devRef .tc main_v22) = Cert.ReferenceIdeal.Read.val_main_v22 (F := Ideal) (Wv (Proc.devRef .tc main_arg0)) (Wv (Proc.devRef .tc main_arg1)) := by
  after_results
  rfl

set_option maxHeartbeats 4000000 in
/-- It leaves the transposed first weight matrix in window 2. -/
theorem after0_wl (Wv : Valuation τ sig (Elt Ideal)) :
    StableHlo.after hostOps0 Wv (Proc.devRef .tc main_v23) = Cert.ReferenceIdeal.Read.val_main_v23 (F := Ideal) (Wv (Proc.devRef .tc main_arg2)) := by
  after_results
  rfl

set_option maxHeartbeats 4000000 in
/-- It leaves the transposed second weight matrix in window 3. -/
theorem after0_wr (Wv : Valuation τ sig (Elt Ideal)) :
    StableHlo.after hostOps0 Wv (Proc.devRef .tc main_v24) = Cert.ReferenceIdeal.Read.val_main_v28 (F := Ideal) (Wv (Proc.devRef .tc main_arg3)) := by
  after_results
  rfl

set_option maxHeartbeats 4000000 in
/-- It leaves the edge sources in their buffer. -/
theorem after0_src (Wv : Valuation τ sig (Elt Ideal)) :
    StableHlo.after hostOps0 Wv (Proc.devRef .tc main_v1) = Cert.ReferenceIdeal.Read.val_main_v33 (F := Ideal) (Wv (Proc.devRef .tc main_arg1)) := by
  after_results
  rfl

set_option maxHeartbeats 4000000 in
/-- It leaves the edge targets in their buffer. -/
theorem after0_dst (Wv : Valuation τ sig (Elt Ideal)) :
    StableHlo.after hostOps0 Wv (Proc.devRef .tc main_v3) = Cert.ReferenceIdeal.Read.val_main_v35 (F := Ideal) (Wv (Proc.devRef .tc main_arg1)) := by
  after_results
  rfl

/-- The host operations before the first grid leave argument 0 alone. -/
theorem after0_arg0 (Wv : Valuation τ sig (Elt Ideal)) :
    StableHlo.after hostOps0 Wv (Proc.devRef .tc main_arg0) = Wv (Proc.devRef .tc main_arg0) := by
  after_results

/-- The host operations before the first grid leave argument 1 alone. -/
theorem after0_arg1 (Wv : Valuation τ sig (Elt Ideal)) :
    StableHlo.after hostOps0 Wv (Proc.devRef .tc main_arg1) = Wv (Proc.devRef .tc main_arg1) := by
  after_results

/-- The host operations before the first grid leave argument 4 alone. -/
theorem after0_arg4 (Wv : Valuation τ sig (Elt Ideal)) :
    StableHlo.after hostOps0 Wv (Proc.devRef .tc main_arg4) = Wv (Proc.devRef .tc main_arg4) := by
  after_results

/-- The host operations before the first grid leave argument 5 alone. -/
theorem after0_arg5 (Wv : Valuation τ sig (Elt Ideal)) :
    StableHlo.after hostOps0 Wv (Proc.devRef .tc main_arg5) = Wv (Proc.devRef .tc main_arg5) := by
  after_results

/-- The host operations before the first grid leave argument 6 alone. -/
theorem after0_arg6 (Wv : Valuation τ sig (Elt Ideal)) :
    StableHlo.after hostOps0 Wv (Proc.devRef .tc main_arg6) = Wv (Proc.devRef .tc main_arg6) := by
  after_results

/-- The host operations before the first grid leave argument 7 alone. -/
theorem after0_arg7 (Wv : Valuation τ sig (Elt Ideal)) :
    StableHlo.after hostOps0 Wv (Proc.devRef .tc main_arg7) = Wv (Proc.devRef .tc main_arg7) := by
  after_results

/-- The host operations before the first grid leave argument 8 alone. -/
theorem after0_arg8 (Wv : Valuation τ sig (Elt Ideal)) :
    StableHlo.after hostOps0 Wv (Proc.devRef .tc main_arg8) = Wv (Proc.devRef .tc main_arg8) := by
  after_results

/-- The host operations before the first grid leave argument 9 alone. -/
theorem after0_arg9 (Wv : Valuation τ sig (Elt Ideal)) :
    StableHlo.after hostOps0 Wv (Proc.devRef .tc main_arg9) = Wv (Proc.devRef .tc main_arg9) := by
  after_results

/-- The host operations before the first grid leave argument 10 alone. -/
theorem after0_arg10 (Wv : Valuation τ sig (Elt Ideal)) :
    StableHlo.after hostOps0 Wv (Proc.devRef .tc main_arg10) = Wv (Proc.devRef .tc main_arg10) := by
  after_results

/-! ## The stretch between the grids, from any memory -/

set_option maxHeartbeats 4000000 in
/-- It leaves in the second grid's window 0 the neighbourhood mean of the array it finds in the first grid's result buffer, over the edges it finds in the source and target buffers. -/
theorem after1_mean (Wv : Valuation τ sig (Elt Ideal)) :
    StableHlo.after hostOps1 Wv (Proc.devRef .tc main_v44) = Cert.Sage.Ref.meanOf (Wv (Proc.devRef .tc main_v25)) (Wv (Proc.devRef .tc main_v1)) (Wv (Proc.devRef .tc main_v3)) := by
  after_results
  rfl

/-- It leaves the first grid's result buffer alone. -/
theorem after1_hidden (Wv : Valuation τ sig (Elt Ideal)) :
    StableHlo.after hostOps1 Wv (Proc.devRef .tc main_v25) = Wv (Proc.devRef .tc main_v25) := by
  after_results

set_option maxHeartbeats 4000000 in
/-- It leaves the class head's transposed first weight matrix. -/
theorem after1_main_v45 (Wv : Valuation τ sig (Elt Ideal)) :
    StableHlo.after hostOps1 Wv (Proc.devRef .tc main_v45) = Cert.ReferenceIdeal.Read.val_main_v55 (F := Ideal) (Wv (Proc.devRef .tc main_arg5)) := by
  after_results
  rfl

set_option maxHeartbeats 4000000 in
/-- It leaves the class head's transposed second weight matrix. -/
theorem after1_main_v46 (Wv : Valuation τ sig (Elt Ideal)) :
    StableHlo.after hostOps1 Wv (Proc.devRef .tc main_v46) = Cert.ReferenceIdeal.Read.val_main_v60 (F := Ideal) (Wv (Proc.devRef .tc main_arg6)) := by
  after_results
  rfl

set_option maxHeartbeats 4000000 in
/-- It leaves the domain head's transposed first weight matrix. -/
theorem after1_main_v47 (Wv : Valuation τ sig (Elt Ideal)) :
    StableHlo.after hostOps1 Wv (Proc.devRef .tc main_v47) = Cert.ReferenceIdeal.Read.val_main_v91 (F := Ideal) (Wv (Proc.devRef .tc main_arg8)) := by
  after_results
  rfl

set_option maxHeartbeats 4000000 in
/-- It leaves the domain head's transposed second weight matrix. -/
theorem after1_main_v48 (Wv : Valuation τ sig (Elt Ideal)) :
    StableHlo.after hostOps1 Wv (Proc.devRef .tc main_v48) = Cert.ReferenceIdeal.Read.val_main_v96 (F := Ideal) (Wv (Proc.devRef .tc main_arg9)) := by
  after_results
  rfl

/-- The host operations between the grids leave argument 7 alone. -/
theorem after1_arg7 (Wv : Valuation τ sig (Elt Ideal)) :
    StableHlo.after hostOps1 Wv (Proc.devRef .tc main_arg7) = Wv (Proc.devRef .tc main_arg7) := by
  after_results

/-- The host operations between the grids leave argument 10 alone. -/
theorem after1_arg10 (Wv : Valuation τ sig (Elt Ideal)) :
    StableHlo.after hostOps1 Wv (Proc.devRef .tc main_arg10) = Wv (Proc.devRef .tc main_arg10) := by
  after_results

/-! ## Placed in the run -/

variable (m : (ℓ : Loc nD τ sig) → Buf (Elt Ideal) ℓ) (ρ : Dev nD → PrngReg)

/-- The first grid's window 0 holds the neighbourhood mean of the input features. -/
theorem V1_mean (c : Dev nD) :
    V1 m ρ c main_v22 = Cert.ReferenceIdeal.Read.val_main_v22 (F := Ideal) (m ((c : Thread nD τ).loc main_arg0)) (m ((c : Thread nD τ).loc main_arg1)) :=
  after0_mean (W0 m ρ c)

/-- Its window 2 holds the transposed first weight matrix. -/
theorem V1_wl (c : Dev nD) : V1 m ρ c main_v23 = Cert.ReferenceIdeal.Read.val_main_v23 (F := Ideal) (m ((c : Thread nD τ).loc main_arg2)) :=
  after0_wl (W0 m ρ c)

/-- Its window 3 holds the transposed second weight matrix. -/
theorem V1_wr (c : Dev nD) : V1 m ρ c main_v24 = Cert.ReferenceIdeal.Read.val_main_v28 (F := Ideal) (m ((c : Thread nD τ).loc main_arg3)) :=
  after0_wr (W0 m ρ c)

/-- Its window 1 holds the input features as launched. -/
theorem V1_x (c : Dev nD) : V1 m ρ c main_arg0 = m ((c : Thread nD τ).loc main_arg0) := after0_arg0 (W0 m ρ c)

/-- Its window 4 holds the first bias as launched. -/
theorem V1_b (c : Dev nD) : V1 m ρ c main_arg4 = m ((c : Thread nD τ).loc main_arg4) := after0_arg4 (W0 m ρ c)

/-- Argument 1 is untouched by the first grid and by the host operations before it. -/
theorem W2_arg1 (c : Dev nD) : W2 m ρ c (Proc.devRef .tc main_arg1) = m ((c : Thread nD τ).loc main_arg1) :=
  (W2_of_ne m ρ c main_arg1 (by decide)).trans (after0_arg1 (W0 m ρ c))

/-- Argument 5 is untouched by the first grid and by the host operations before it. -/
theorem W2_arg5 (c : Dev nD) : W2 m ρ c (Proc.devRef .tc main_arg5) = m ((c : Thread nD τ).loc main_arg5) :=
  (W2_of_ne m ρ c main_arg5 (by decide)).trans (after0_arg5 (W0 m ρ c))

/-- Argument 6 is untouched by the first grid and by the host operations before it. -/
theorem W2_arg6 (c : Dev nD) : W2 m ρ c (Proc.devRef .tc main_arg6) = m ((c : Thread nD τ).loc main_arg6) :=
  (W2_of_ne m ρ c main_arg6 (by decide)).trans (after0_arg6 (W0 m ρ c))

/-- Argument 7 is untouched by the first grid and by the host operations before it. -/
theorem W2_arg7 (c : Dev nD) : W2 m ρ c (Proc.devRef .tc main_arg7) = m ((c : Thread nD τ).loc main_arg7) :=
  (W2_of_ne m ρ c main_arg7 (by decide)).trans (after0_arg7 (W0 m ρ c))

/-- Argument 8 is untouched by the first grid and by the host operations before it. -/
theorem W2_arg8 (c : Dev nD) : W2 m ρ c (Proc.devRef .tc main_arg8) = m ((c : Thread nD τ).loc main_arg8) :=
  (W2_of_ne m ρ c main_arg8 (by decide)).trans (after0_arg8 (W0 m ρ c))

/-- Argument 9 is untouched by the first grid and by the host operations before it. -/
theorem W2_arg9 (c : Dev nD) : W2 m ρ c (Proc.devRef .tc main_arg9) = m ((c : Thread nD τ).loc main_arg9) :=
  (W2_of_ne m ρ c main_arg9 (by decide)).trans (after0_arg9 (W0 m ρ c))

/-- Argument 10 is untouched by the first grid and by the host operations before it. -/
theorem W2_arg10 (c : Dev nD) : W2 m ρ c (Proc.devRef .tc main_arg10) = m ((c : Thread nD τ).loc main_arg10) :=
  (W2_of_ne m ρ c main_arg10 (by decide)).trans (after0_arg10 (W0 m ρ c))

/-- The edge sources, computed before the first grid, are untouched by it. -/
theorem W2_src (c : Dev nD) :
    W2 m ρ c (Proc.devRef .tc main_v1) = Cert.ReferenceIdeal.Read.val_main_v33 (F := Ideal) (m ((c : Thread nD τ).loc main_arg1)) :=
  (W2_of_ne m ρ c main_v1 (by decide)).trans (after0_src (W0 m ρ c))

/-- The edge targets, computed before the first grid, are untouched by it. -/
theorem W2_dst (c : Dev nD) :
    W2 m ρ c (Proc.devRef .tc main_v3) = Cert.ReferenceIdeal.Read.val_main_v35 (F := Ideal) (m ((c : Thread nD τ).loc main_arg1)) :=
  (W2_of_ne m ρ c main_v3 (by decide)).trans (after0_dst (W0 m ρ c))

/-- The second grid's window 1 holds the hidden features the first grid left. -/
theorem V3_hidden (c : Dev nD) : V3 m ρ c main_v25 = W2 m ρ c (Proc.devRef .tc main_v25) := after1_hidden (W2 m ρ c)

/-- The second grid's window 0 holds the neighbourhood mean, over the argument edge list, of the hidden features the
    first grid left. -/
theorem V3_mean (c : Dev nD) :
    V3 m ρ c main_v44 = Cert.Sage.Ref.mean128 (W2 m ρ c (Proc.devRef .tc main_v25)) (m ((c : Thread nD τ).loc main_arg1)) := by
  refine (after1_mean (W2 m ρ c)).trans ?_
  generalize W2 m ρ c (Proc.devRef .tc main_v25) = H
  rw [W2_src m ρ c, W2_dst m ρ c]
  exact Cert.Sage.Ref.meanOf_rows H _

/-- The second grid's window holding the class head's transposed first weight matrix. -/
theorem V3_main_v45 (c : Dev nD) :
    V3 m ρ c main_v45 = Cert.ReferenceIdeal.Read.val_main_v55 (F := Ideal) (m ((c : Thread nD τ).loc main_arg5)) :=
  (after1_main_v45 (W2 m ρ c)).trans (congrArg (Cert.ReferenceIdeal.Read.val_main_v55 (F := Ideal)) (W2_arg5 m ρ c))

/-- The second grid's window holding the class head's transposed second weight matrix. -/
theorem V3_main_v46 (c : Dev nD) :
    V3 m ρ c main_v46 = Cert.ReferenceIdeal.Read.val_main_v60 (F := Ideal) (m ((c : Thread nD τ).loc main_arg6)) :=
  (after1_main_v46 (W2 m ρ c)).trans (congrArg (Cert.ReferenceIdeal.Read.val_main_v60 (F := Ideal)) (W2_arg6 m ρ c))

/-- The second grid's window holding the domain head's transposed first weight matrix. -/
theorem V3_main_v47 (c : Dev nD) :
    V3 m ρ c main_v47 = Cert.ReferenceIdeal.Read.val_main_v91 (F := Ideal) (m ((c : Thread nD τ).loc main_arg8)) :=
  (after1_main_v47 (W2 m ρ c)).trans (congrArg (Cert.ReferenceIdeal.Read.val_main_v91 (F := Ideal)) (W2_arg8 m ρ c))

/-- The second grid's window holding the domain head's transposed second weight matrix. -/
theorem V3_main_v48 (c : Dev nD) :
    V3 m ρ c main_v48 = Cert.ReferenceIdeal.Read.val_main_v96 (F := Ideal) (m ((c : Thread nD τ).loc main_arg9)) :=
  (after1_main_v48 (W2 m ρ c)).trans (congrArg (Cert.ReferenceIdeal.Read.val_main_v96 (F := Ideal)) (W2_arg9 m ρ c))

/-- The second grid's window 4 holds the class head's bias as launched. -/
theorem V3_arg7 (c : Dev nD) : V3 m ρ c main_arg7 = m ((c : Thread nD τ).loc main_arg7) :=
  (after1_arg7 (W2 m ρ c)).trans (W2_arg7 m ρ c)

/-- The second grid's window 7 holds the domain head's bias as launched. -/
theorem V3_arg10 (c : Dev nD) : V3 m ρ c main_arg10 = m ((c : Thread nD τ).loc main_arg10) :=
  (after1_arg10 (W2 m ρ c)).trans (W2_arg10 m ρ c)

end Cert.KernelIdeal.Val

end
-- ==== Proof.MeanReal.lean ====
/-
  The neighbourhood mean of real features is real.

  mean[i, c] = (0 + Σ_{edges e landing on i} x[src e, c]) / max(0 + Σ_{edges e landing on i} 1, 1):
  a gather reads entries of x (at a clamped row, always inside the array), a scatter-add is the operand's entry plus
  a finite sum of update entries, the degree is a finite sum of ones, so max(degree, 1) is a real ≥ 1, and a real
  divided by a positive real is a real.
-/
import proofs.«129361_j51187420233864_2_alg».proof.Proof.Gen.ReferenceIdeal.Read
import proofs.«129361_j51187420233864_2_alg».proof.Proof.LibRealChain
import Idealize.ShloMosaic.Lib.IdealHost

noncomputable section

namespace Cert.Sage.Ref

open Idealize.ShloMosaic Cert.Lib Cert.ReferenceIdeal Cert.ReferenceIdeal.Gen Cert.ReferenceIdeal.Read

/-- An accumulating scatter of real updates into a real operand is real at every index: each entry is the operand's
    entry plus a finite sum of update entries, whatever the scatter indices are. -/
theorem scatterAdd_isReal {s si su : Shape} {φ : FTy} {w : Nat} (d : ScatterDims s si su) (x : FVec Ideal s φ)
    (idx : IVec si w) (upd : FVec Ideal su φ) (hx : ∀ i, IsReal (x i)) (hu : ∀ j, IsReal (upd j)) :
    ∀ i, IsReal (Host.scatterAdd d x idx upd i) := by
  intro i
  unfold Host.scatterAdd
  rw [Ideal.hostScatterAdd_def]
  unfold Ideal.hostScatterAdd
  exact (hx i).add (IsReal.sum _ _ fun j _ => hu j)

/-- The mean of the 64-channel input features over each node's incoming edges (the reference's %22) is real when the
    features are. -/
theorem mean64_isReal (x0 : FVec Ideal S100000x64 .f32) (x1 : IVec S2x800000 32) (h0 : ∀ i, IsReal (x0 i)) :
    ∀ i, IsReal (val_main_v22 (F := Ideal) x0 x1 i) := by
  intro i
  rw [val_main_v22_apply, Ideal.hostDivf_def]
  refine IsReal.div_pos ?_ ?_
  · -- the numerator: the zero array plus, at each entry, a finite sum of gathered entries of x0
    unfold val_main_v13
    refine scatterAdd_isReal _ _ _ _ (fun k => ?_) (fun j => ?_) i
    · rw [val_main_v11_apply, val_main_cst_apply, Ideal.ofBits_def, Ideal.ofBits_zero_f32]
      exact isReal_zero
    · unfold val_main_v10 Host.gather
      exact h0 _
  · -- the denominator: max(degree, 1), the degree being the zero array plus a finite sum of ones
    rw [val_main_v21_apply, val_main_v20_apply, val_main_v19_apply, Ideal.maximumf_def]
    have h18 : val_main_v18 (F := Ideal) (idx_main_v20 (idx_main_v21 i)) = 1 := by
      rw [val_main_v18_apply, val_main_cst_3_apply, Ideal.ofBits_def, Ideal.ofBits_one_f32]
    rw [h18, isPosReal_iff]
    refine ⟨IsReal.max ?_ isReal_one, lt_of_lt_of_le zero_lt_one (le_max_right _ _)⟩
    unfold val_main_v17
    refine scatterAdd_isReal _ _ _ _ (fun k => ?_) (fun j => ?_) _
    · rw [val_main_v15_apply, val_main_cst_2_apply, Ideal.ofBits_def, Ideal.ofBits_zero_f32]
      exact isReal_zero
    · rw [val_main_v14_apply, val_main_cst_1_apply, Ideal.ofBits_def, Ideal.ofBits_one_f32]
      exact isReal_one

end Cert.Sage.Ref

end
-- ==== Proof.Bridge.lean ====
/-
  The two programs compute one function of the arguments.

  Kernel side: the first grid leaves hidden = relu(layer(mean(x), x)) (its weights arrive transposed, and a transposed
  matrix read at (k, q) is the matrix at (q, k)); the host operations between the grids take the mean of that array;
  the second grid leaves class = layer(mean(hidden), hidden) and domain = layer(mean(hidden), hidden) with the two
  heads' weights. Reference side: the same three layers with the bias added between the two sums, which is the same
  function, and the domain head computed on (-1/2)·hidden + (3/2)·hidden, which is hidden because hidden is real:
  the inputs are real by the precondition, the mean of real features is real, a layer of reals is real, and so is
  its rectification.
-/
import proofs.«129361_j51187420233864_2_alg».proof.Proof.KernelRun
import proofs.«129361_j51187420233864_2_alg».proof.Proof.KernelArray0
import proofs.«129361_j51187420233864_2_alg».proof.Proof.KernelArray1
import proofs.«129361_j51187420233864_2_alg».proof.Proof.KernelHost
import proofs.«129361_j51187420233864_2_alg».proof.Proof.RefRead
import proofs.«129361_j51187420233864_2_alg».proof.Proof.MeanReal
import proofs.«129361_j51187420233864_2_alg».proof.Proof.SageSpec

set_option maxRecDepth 16384

noncomputable section

namespace Cert.Sage.Bridge

open Cert.KernelIdeal Cert.KernelIdeal.Gen Cert.KernelIdeal.GenP Cert.KernelIdeal.Val
open Idealize.ShloMosaic Idealize.ShloMosaic.TcCoe Idealize.ShloMosaic.ValueIdx
open Idealize.SL Idealize.SL.Sem
open Cert.Lib Cert.Sage Cert.Sage.Ref
open scoped BigOperators

local notation "Rv22" => Cert.ReferenceIdeal.Read.val_main_v22 (F := Ideal)
local notation "Rv23" => Cert.ReferenceIdeal.Read.val_main_v23 (F := Ideal)
local notation "Rv28" => Cert.ReferenceIdeal.Read.val_main_v28 (F := Ideal)
local notation "Rv31" => Cert.ReferenceIdeal.Read.val_main_v31 (F := Ideal)
local notation "Rv55" => Cert.ReferenceIdeal.Read.val_main_v55 (F := Ideal)
local notation "Rv60" => Cert.ReferenceIdeal.Read.val_main_v60 (F := Ideal)
local notation "Rv91" => Cert.ReferenceIdeal.Read.val_main_v91 (F := Ideal)
local notation "Rv96" => Cert.ReferenceIdeal.Read.val_main_v96 (F := Ideal)

/-! ## Transposed weights: the grids' layers are the channel-major layers -/

/-- The first grid's layer, fed the transposes of `Wl`, `Wr` : [128, 64], is the rectified channel-major layer. -/
theorem layer1_eq (M x : FVec Ideal S100000x64 .f32) (Wl Wr : FVec Ideal S128x64 .f32) (b : FVec Ideal S128 .f32) :
    layer1 M x (Rv23 Wl) (Rv28 Wr) b = relu (convK M x Wl Wr b) := by
  have tl : ∀ (k : Fin 64) (q : Fin 128), Rv23 Wl (ix2 k q) = Wl (ix2 q k) := fun k q => by
    rw [Cert.ReferenceIdeal.Read.val_main_v23_apply]
    exact congrArg Wl (funext fun a => Fin.ext (by match a with | ⟨0, _⟩ => rfl | ⟨1, _⟩ => rfl))
  have tr : ∀ (k : Fin 64) (q : Fin 128), Rv28 Wr (ix2 k q) = Wr (ix2 q k) := fun k q => by
    rw [Cert.ReferenceIdeal.Read.val_main_v28_apply]
    exact congrArg Wr (funext fun a => Fin.ext (by match a with | ⟨0, _⟩ => rfl | ⟨1, _⟩ => rfl))
  funext j
  obtain ⟨a, q, rfl⟩ : ∃ (a : Fin 100000) (q : Fin 128), j = ix2 a q := ⟨j 0, j 1, eq_ix2 j⟩
  show max (((∑ c : Fin 64, M (ix2 a c) * Rv23 Wl (ix2 c q)) + ∑ c : Fin 64, x (ix2 a c) * Rv28 Wr (ix2 c q)) + b (ix1 q)) 0
    = max (((∑ k : Fin 64, M (ix2 a k) * Wl (ix2 q k)) + ∑ k : Fin 64, x (ix2 a k) * Wr (ix2 q k)) + b (ix1 q)) 0
  simp only [tl, tr]

/-- The second grid's class head, fed the transposes of `Wl`, `Wr` : [16, 128], is the channel-major layer. -/
theorem layer2c_eq (M H : FVec Ideal S100000x128 .f32) (Wl Wr : FVec Ideal S16x128 .f32) (b : FVec Ideal S16 .f32) :
    layer2c M H (Rv55 Wl) (Rv60 Wr) b = convK M H Wl Wr b := by
  have tl : ∀ (k : Fin 128) (q : Fin 16), Rv55 Wl (ix2 k q) = Wl (ix2 q k) := fun k q => by
    rw [Cert.ReferenceIdeal.Read.val_main_v55_apply]
    exact congrArg Wl (funext fun a => Fin.ext (by match a with | ⟨0, _⟩ => rfl | ⟨1, _⟩ => rfl))
  have tr : ∀ (k : Fin 128) (q : Fin 16), Rv60 Wr (ix2 k q) = Wr (ix2 q k) := fun k q => by
    rw [Cert.ReferenceIdeal.Read.val_main_v60_apply]
    exact congrArg Wr (funext fun a => Fin.ext (by match a with | ⟨0, _⟩ => rfl | ⟨1, _⟩ => rfl))
  funext j
  obtain ⟨a, q, rfl⟩ : ∃ (a : Fin 100000) (q : Fin 16), j = ix2 a q := ⟨j 0, j 1, eq_ix2 j⟩
  show ((∑ c : Fin 128, M (ix2 a c) * Rv55 Wl (ix2 c q)) + ∑ c : Fin 128, H (ix2 a c) * Rv60 Wr (ix2 c q)) + b (ix1 q)
    = ((∑ k : Fin 128, M (ix2 a k) * Wl (ix2 q k)) + ∑ k : Fin 128, H (ix2 a k) * Wr (ix2 q k)) + b (ix1 q)
  simp only [tl, tr]

/-- The second grid's domain head, fed the transposes of `Wl`, `Wr` : [2, 128], is the channel-major layer. -/
theorem layer2d_eq (M H : FVec Ideal S100000x128 .f32) (Wl Wr : FVec Ideal S2x128 .f32) (b : FVec Ideal S2 .f32) :
    layer2d M H (Rv91 Wl) (Rv96 Wr) b = convK M H Wl Wr b := by
  have tl : ∀ (k : Fin 128) (q : Fin 2), Rv91 Wl (ix2 k q) = Wl (ix2 q k) := fun k q => by
    rw [Cert.ReferenceIdeal.Read.val_main_v91_apply]
    exact congrArg Wl (funext fun a => Fin.ext (by match a with | ⟨0, _⟩ => rfl | ⟨1, _⟩ => rfl))
  have tr : ∀ (k : Fin 128) (q : Fin 2), Rv96 Wr (ix2 k q) = Wr (ix2 q k) := fun k q => by
    rw [Cert.ReferenceIdeal.Read.val_main_v96_apply]
    exact congrArg Wr (funext fun a => Fin.ext (by match a with | ⟨0, _⟩ => rfl | ⟨1, _⟩ => rfl))
  funext j
  obtain ⟨a, q, rfl⟩ : ∃ (a : Fin 100000) (q : Fin 2), j = ix2 a q := ⟨j 0, j 1, eq_ix2 j⟩
  show ((∑ c : Fin 128, M (ix2 a c) * Rv91 Wl (ix2 c q)) + ∑ c : Fin 128, H (ix2 a c) * Rv96 Wr (ix2 c q)) + b (ix1 q)
    = ((∑ k : Fin 128, M (ix2 a k) * Wl (ix2 q k)) + ∑ k : Fin 128, H (ix2 a k) * Wr (ix2 q k)) + b (ix1 q)
  simp only [tl, tr]

/-! ## The kernel program's two results -/

variable (m : (ℓ : Loc nD τ sig) → Buf (Elt Ideal) ℓ) (ρ : Dev nD → PrngReg)

/-- The hidden features, as the reference names them, of the kernel program's arguments. -/
abbrev hid (c : Dev nD) : FVec Ideal S100000x128 .f32 :=
  Rv31 (m ((c : Thread nD τ).loc main_arg0)) (m ((c : Thread nD τ).loc main_arg1)) (m ((c : Thread nD τ).loc main_arg2))
    (m ((c : Thread nD τ).loc main_arg3)) (m ((c : Thread nD τ).loc main_arg4))

/-- After the first grid its result array holds the reference's hidden features of the arguments. -/
theorem hidden_eq (c : Dev nD) : W2 m ρ c (Proc.devRef .tc main_v25) = hid m c := by
  refine (W2_arr m ρ c 5).trans ((final0_5 (V1 m ρ) c).trans ?_)
  rw [V1_mean m ρ c, V1_x m ρ c, V1_wl m ρ c, V1_wr m ρ c, V1_b m ρ c, layer1_eq]
  show _ = Rv31 _ _ _ _ _
  rw [ref_hidden, convR_eq_convK]

/-- The class head the kernel program returns. -/
theorem out_class (c : Dev nD) :
    W4 m ρ c (Proc.devRef .tc main_v49_0)
      = convK (mean128 (hid m c) (m ((c : Thread nD τ).loc main_arg1))) (hid m c) (m ((c : Thread nD τ).loc main_arg5))
          (m ((c : Thread nD τ).loc main_arg6)) (m ((c : Thread nD τ).loc main_arg7)) := by
  refine (W4_arr m ρ c 8).trans ((final1_8 (V3 m ρ) c).trans ?_)
  rw [V3_mean m ρ c, V3_hidden m ρ c, V3_main_v45 m ρ c, V3_main_v46 m ρ c, V3_arg7 m ρ c, hidden_eq m ρ c, layer2c_eq]

/-- The domain head the kernel program returns. -/
theorem out_domain (c : Dev nD) :
    W4 m ρ c (Proc.devRef .tc main_v49_1)
      = convK (mean128 (hid m c) (m ((c : Thread nD τ).loc main_arg1))) (hid m c) (m ((c : Thread nD τ).loc main_arg8))
          (m ((c : Thread nD τ).loc main_arg9)) (m ((c : Thread nD τ).loc main_arg10)) := by
  refine (W4_arr m ρ c 9).trans ((final1_9 (V3 m ρ) c).trans ?_)
  rw [V3_mean m ρ c, V3_hidden m ρ c, V3_main_v47 m ρ c, V3_main_v48 m ρ c, V3_arg10 m ρ c, hidden_eq m ρ c, layer2d_eq]

/-! ## The hidden features are real when the inputs are -/

/-- A rectified layer of real features, their (real) mean, real weights and a real bias is real. -/
theorem hidden_isReal (x0 : FVec Ideal S100000x64 .f32) (x1 : IVec S2x800000 32) (x2 x3 : FVec Ideal S128x64 .f32)
    (x4 : FVec Ideal S128 .f32) (h0 : ∀ i, IsReal (x0 i)) (h2 : ∀ i, IsReal (x2 i)) (h3 : ∀ i, IsReal (x3 i))
    (h4 : ∀ i, IsReal (x4 i)) : ∀ i, IsReal (Rv31 x0 x1 x2 x3 x4 i) := by
  intro i
  rw [ref_hidden, convR_eq_convK]
  exact relu_isReal (fun j => convK_isReal (mean64_isReal x0 x1 h0) h0 h2 h3 h4 j) i

/-! ## The reference's two heads in the kernel's arrangement -/

/-- The reference's class head, bias last. -/
theorem ref_class' (x0 : FVec Ideal S100000x64 .f32) (x1 : IVec S2x800000 32) (x2 x3 : FVec Ideal S128x64 .f32)
    (x4 : FVec Ideal S128 .f32) (x5 x6 : FVec Ideal S16x128 .f32) (x7 : FVec Ideal S16 .f32) :
    Cert.ReferenceIdeal.Read.val_main_v62 (F := Ideal) x0 x1 x2 x3 x4 x5 x6 x7
      = convK (mean128 (Rv31 x0 x1 x2 x3 x4) x1) (Rv31 x0 x1 x2 x3 x4) x5 x6 x7 := by
  rw [ref_class, convR_eq_convK]

/-- The reference's domain head, bias last, for real inputs. -/
theorem ref_domain' (x0 : FVec Ideal S100000x64 .f32) (x1 : IVec S2x800000 32) (x2 x3 : FVec Ideal S128x64 .f32)
    (x4 : FVec Ideal S128 .f32) (x8 x9 : FVec Ideal S2x128 .f32) (x10 : FVec Ideal S2 .f32)
    (h0 : ∀ i, IsReal (x0 i)) (h2 : ∀ i, IsReal (x2 i)) (h3 : ∀ i, IsReal (x3 i)) (h4 : ∀ i, IsReal (x4 i)) :
    Cert.ReferenceIdeal.Read.val_main_v98 (F := Ideal) x0 x1 x2 x3 x4 x8 x9 x10
      = convK (mean128 (Rv31 x0 x1 x2 x3 x4) x1) (Rv31 x0 x1 x2 x3 x4) x8 x9 x10 := by
  rw [ref_domain x0 x1 x2 x3 x4 x8 x9 x10 (hidden_isReal x0 x1 x2 x3 x4 h0 h2 h3 h4), convR_eq_convK]

/-! ## The kernel program's run, with its results named -/

/-- The class head as a function of the launch memory. -/
def outC (c : Dev nD) : Buf (Elt Ideal) ((c : Thread nD τ).loc main_v49_0) :=
  convK (mean128 (hid m c) (m ((c : Thread nD τ).loc main_arg1))) (hid m c) (m ((c : Thread nD τ).loc main_arg5))
    (m ((c : Thread nD τ).loc main_arg6)) (m ((c : Thread nD τ).loc main_arg7))

/-- The domain head as a function of the launch memory. -/
def outD (c : Dev nD) : Buf (Elt Ideal) ((c : Thread nD τ).loc main_v49_1) :=
  convK (mean128 (hid m c) (m ((c : Thread nD τ).loc main_arg1))) (hid m c) (m ((c : Thread nD τ).loc main_arg8))
    (m ((c : Thread nD τ).loc main_arg9)) (m ((c : Thread nD τ).loc main_arg10))

/-- Every weakly fair execution of the kernel program terminates with the two heads at those functions and the
    arguments as launched. -/
theorem kernel_run : θ_run defs (onTc (τ := τ) (main (F := Ideal))) ⟨m, fun _ => 0, ρ⟩ (fun r => ∀ c : Dev nD,
      r.2.mem ((c.tc : Thread nD τ).loc main_v49_0) = outC m c
      ∧ r.2.mem ((c.tc : Thread nD τ).loc main_v49_1) = outD m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (out_class m ρ c), (h c).2.1.trans (out_domain m ρ c), (h c).2.2⟩)
    (run_results m ρ)

end Cert.Sage.Bridge

end
-- ==== Proof.lean ====
/-
  The certificate of a two-layer graph convolution (mean aggregation over incoming edges, two output heads) computed
  by two gridded layer kernels around host-side gathers and scatter-adds, against the plain array program.

  Frames: each kernel program is four segments (host operations, a grid of 50 steps, host operations, a grid of 50
  steps), each run from the previous boundary's buffer contents, and no segment writes an argument; the reference is a
  straight line of host operations. The idealization rewrote nothing, so `preserves` is trivial. The value claim: at the ideal instance both programs end with
      class  = layer(mean(h), h; W2l, W2r, b2),   domain = layer(mean(h), h; Wdl, Wdr, bd),
      h = relu(layer(mean(x), x; W1l, W1r, b1)),
  the kernel side read off its two grids block by block, the reference side read operation by operation; the
  reference adds each bias between a layer's two sums (the same value on the extended reals) and feeds its domain head
  (-1/2)·h + (3/2)·h, which is h because h is real under the precondition.
-/
import proofs.«129361_j51187420233864_2_alg».proof.Defs
import proofs.«129361_j51187420233864_2_alg».proof.Proof.Gen.Kernel
import proofs.«129361_j51187420233864_2_alg».proof.Proof.Gen.Kernel.Skeleton
import proofs.«129361_j51187420233864_2_alg».proof.Proof.KernelLaunchP
import proofs.«129361_j51187420233864_2_alg».proof.Proof.Gen.Kernel.Points
import proofs.«129361_j51187420233864_2_alg».proof.Proof.KernelFrameP
import proofs.«129361_j51187420233864_2_alg».proof.Proof.Gen.KernelIdeal
import proofs.«129361_j51187420233864_2_alg».proof.Proof.Gen.KernelIdeal.Skeleton
import proofs.«129361_j51187420233864_2_alg».proof.Proof.KernelIdealLaunchP
import proofs.«129361_j51187420233864_2_alg».proof.Proof.Gen.KernelIdeal.Points
import proofs.«129361_j51187420233864_2_alg».proof.Proof.KernelIdealFrameP
import proofs.«129361_j51187420233864_2_alg».proof.Proof.Gen.ReferenceIdeal
import proofs.«129361_j51187420233864_2_alg».proof.Proof.Gen.Pre_finite_inputs
import proofs.«129361_j51187420233864_2_alg».proof.Proof.Gen.ReferenceIdeal.Run
import proofs.«129361_j51187420233864_2_alg».proof.Proof.Gen.ReferenceIdeal.Read
import proofs.«129361_j51187420233864_2_alg».proof.Proof.FiniteInputs
import proofs.«129361_j51187420233864_2_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.GenP.frame m ρ

/-- The idealized kernel program runs and keeps its arguments. -/
theorem frame_ki : Cert.frame_KernelIdeal := fun m ρ _ => Cert.KernelIdeal.GenP.frame m ρ

/-- The reference runs and keeps its arguments: its generated run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with the same two heads: the kernel's run states them as functions of its launch
    memory, and the reference's run, from a memory agreeing on the arguments, ends at the same two functions. -/
theorem algebraic : Cert.algebraic_KernelIdeal_ReferenceIdeal := by
  intro m ρ m' ρ' hpre hagree
  refine ⟨_, _, Cert.Sage.Bridge.kernel_run m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9, e10⟩ := hagree c
  obtain ⟨r0, r2, r3, r4, -⟩ := Cert.Sage.Finite.real_of_fn _ _ _ _ _ _ _ _ _ _ _ (hpre c)
  refine ⟨(h c).1.trans ?_, (h c).2.1.trans ?_, (h c).2.2⟩
  · rw [Cert.ReferenceIdeal.Read.val_main_v62_eq, e0, e1, e2, e3, e4, e5, e6, e7]
    exact Cert.Sage.Bridge.ref_class' _ _ _ _ _ _ _ _
  · rw [Cert.ReferenceIdeal.Read.val_main_v98_eq, e0, e1, e2, e3, e4, e8, e9, e10]
    exact Cert.Sage.Bridge.ref_domain' _ _ _ _ _ _ _ _ r0 r2 r3 r4

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
